-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1600000x2 : Shape := ⟨2, ![1600000, 2]⟩
abbrev S_ : Shape := ⟨0, ![]⟩

class Facts : Prop where
  bcast_S_S1600000x2 : S_.BroadcastsInDim S1600000x2 (![] : Fin 0 → Fin S1600000x2.rank)
  reducesTo_S1600000x2_S_d0_1 : S1600000x2.ReducesTo [0, 1] S_
  h_S_ : 0 < S_.numel

variable [Facts]

def fn {F : FTy → Type} [FloatOps F] (main_arg0 : IVec S1600000x2 32) : IVec S_ 1 :=
  let main_c : IVec S_ 32 := constantI S_ 32 0#32
  let main_v0 : IVec S1600000x2 32 := broadcastInDim S1600000x2 ![] bcast_S_S1600000x2 main_c
  let main_v1 : IVec S1600000x2 1 := cmpi .sge main_arg0 main_v0
  let main_c_0 : IVec S_ 32 := constantI S_ 32 49999#32
  let main_v2 : IVec S1600000x2 32 := broadcastInDim S1600000x2 ![] bcast_S_S1600000x2 main_c_0
  let main_v3 : IVec S1600000x2 1 := cmpi .sle main_arg0 main_v2
  let main_v4 : IVec S1600000x2 1 := andi main_v1 main_v3
  let main_c_1 : IVec S_ 1 := constantI S_ 1 1#1
  let main_v5 : IVec S_ 1 := (fun x v => Host.reduce IntOp.andi x v reducesTo_S1600000x2_S_d0_1 h_S_) main_v4 main_c_1
  main_v5
-- ==== Kernel.lean ====
abbrev S1600000x2 : Shape := ⟨2, ![1600000, 2]⟩
abbrev S1600000 : Shape := ⟨1, ![1600000]⟩
abbrev S10000 : Shape := ⟨1, ![10000]⟩
abbrev S_ : Shape := ⟨0, ![]⟩
abbrev S16 : Shape := ⟨1, ![16]⟩
abbrev S1x1 : Shape := ⟨2, ![1, 1]⟩
abbrev S32000x2 : Shape := ⟨2, ![32000, 2]⟩
abbrev S1x32000x2 : Shape := ⟨3, ![1, 32000, 2]⟩
abbrev S1 : Shape := ⟨1, ![1]⟩
abbrev S1x1x1 : Shape := ⟨3, ![1, 1, 1]⟩

abbrev nBuf : Table → Nat
  | .hbm => 4
  | .local .tc .vmem => 2
  | .local .tc .smem => 1
  | .local .scVector .vmem => 1
  | _ => 0

abbrev bufTy : (tb : Table) → Fin (nBuf tb) → BufTy
  | .hbm, ⟨0, _⟩ => ⟨S1600000x2, .i32⟩
  | .hbm, ⟨1, _⟩ => ⟨S1600000, .i32⟩
  | .hbm, ⟨2, _⟩ => ⟨S1x1, .i32⟩
  | .hbm, ⟨3, _⟩ => ⟨S_, .i32⟩
  | .local .tc .vmem, ⟨0, _⟩ => ⟨S32000x2, .i32⟩
  | .local .tc .vmem, ⟨1, _⟩ => ⟨S32000x2, .i32⟩
  | .local .tc .smem, ⟨0, _⟩ => ⟨S1x1, .i32⟩
  | .local .scVector .vmem, ⟨0, _⟩ => ⟨S10000, .i32⟩
  | _, _ => ⟨S1600000x2, .i32⟩

abbrev bufScoped : (cs : CoreSpace) → Fin (nBuf (.local .tc cs)) → Bool
  | .vmem, ⟨0, _⟩ => true
  | .vmem, ⟨1, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => true
  | ⟨2, _⟩ => true
  | ⟨3, _⟩ => true
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev cc1_stg0_0 : Ref sig .tc := ⟨.vmem, 0, rfl⟩
abbrev cc1_stg0_1 : Ref sig .tc := ⟨.vmem, 1, rfl⟩
abbrev cc1_stg1_0 : Ref sig .tc := ⟨.smem, 0, rfl⟩
abbrev cc0_scratch0 : Ref sig .scVector := ⟨.vmem, 0, rfl⟩
abbrev cc1_sem0_0 : DmaSem sig := 1
abbrev cc1_sem0_1 : DmaSem sig := 2
abbrev cc1_sem1_0 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c625_i32 : BitVec 32 := 625#32
  let v4 : BitVec 32 := Scalar.addi c0_i32_0 c625_i32
  let c1_i32_1 : BitVec 32 := 1#32
  ⟨c0_i32_0, v4, c1_i32_1⟩
def k0_off1 (k0_t1 : Fin k0_t1_loop.trips) : Fin 1 → Nat :=
  let c0_i32_0 : BitVec 32 := 0#32
  let c1_i32_1 : BitVec 32 := 1#32
  let arg5 : BitVec 32 := Scf.iv c0_i32_0 c1_i32_1 k0_t1
  let c16_i32 : BitVec 32 := 16#32
  let v30 : BitVec 32 := Scalar.muli arg5 c16_i32
  let v31 : Index := Scalar.indexCast v30
  ![v31.toNat]
def k0_off2 (i : grid0.Coords) (c0_i32_3 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c50000_i32 : BitVec 32 := 50000#32
  let v2 : BitVec 32 := Scalar.muli v1 c50000_i32
  let v5 : BitVec 32 := Scalar.addi v2 c0_i32_3
  ![v5.toNat]
abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32000x2 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .smem S1x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  shapeCasts_S16_S16 : S16.ShapeCasts S16
  inb_S32000x2_S32000x2_0_0 : ∀ a, (![0, 0] : Fin 2 → Nat) a + S32000x2.size a ≤ S32000x2.size a
  h_S32000x2 : 0 < S32000x2.numel
  shapeCasts_S32000x2_S1x32000x2 : S32000x2.ShapeCasts S1x32000x2
  reduces_S1x32000x2_S1 : S1x32000x2.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  numel1_S1x1 : S1x1.numel = 1
  shapeCasts_S1x1_S_ : S1x1.ShapeCasts S_
  hcc0_scratch1 : 0 + S_.numel ≤ 4
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_t1_ok : k0_t1_loop.OK
  k0_off1_inb : ∀ k0_t1 : Fin k0_t1_loop.trips, ∀ a, (k0_off1 k0_t1) a + S16.size a ≤ S10000.size a
  k0_off2_inb : ∀ i : grid0.Coords, ∀ (r : Fin 5), ∀ a, (k0_off2 i (BitVec.ofNat 32 (10000 * r.val))) a + S10000.size a ≤ S1600000.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32000x2.size a ≤ S1600000x2.size a
  hwx1_0 : ∀ i : grid1.Coords, EltTy.bits .i32 = 32 ∨ (Rect.block (s := S1600000x2) S32000x2.size (cc1_transform_0 i) (hinb1_0 i)).WholeWords (EltTy.packing .i32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .i32 = 32 ∨ (Rect.block (s := S1x1) S1x1.size (cc1_transform_1 i) (hinb1_1 i)).WholeWords (EltTy.packing .i32)

variable [Facts₀]

abbrev cc0_scratch1 : DmaSems sig S_ := SemArray.consecutive 0 S_ hcc0_scratch1

abbrev win1_0 : Pipeline.Window sig grid1 :=
  Pipeline.Window.ofSpec (Memref.whole main_arg0) S32000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1.size cc1_transform_1 reads1_1 true false 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1600000x2 : Shape := ⟨2, ![1600000, 2]⟩
abbrev S_ : Shape := ⟨0, ![]⟩
abbrev S1600000x1 : Shape := ⟨2, ![1600000, 1]⟩
abbrev S1600000 : Shape := ⟨1, ![1600000]⟩

abbrev nBuf : Space → Nat
  | .hbm => 9
  | .vmem => 0
  | .smem => 0
  | _ => 0

abbrev bufTy : (tb : Table) → Fin (tcTables nBuf tb) → BufTy
  | .hbm, ⟨0, _⟩ => ⟨S1600000x2, .i32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S1600000x1, .i32⟩
  | .hbm, ⟨6, _⟩ => ⟨S1600000, .i32⟩
  | .hbm, ⟨7, _⟩ => ⟨S_, .i32⟩
  | .hbm, ⟨8, _⟩ => ⟨S1600000, .i32⟩
  | _, _ => ⟨S1600000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_1 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  reducesTo_S1600000x2_S_d0_1 : S1600000x2.ReducesTo [0, 1] S_
  h_S_ : 0 < S_.numel
  slices_S1600000x2_S1600000x1_0_0 : S1600000x2.Slices ![0, 0] S1600000x1
  shapeCasts_S1600000x1_S1600000 : S1600000x1.ShapeCasts S1600000
  bcast_S_S1600000 : S_.BroadcastsInDim S1600000 (![] : Fin 0 → Fin S1600000.rank)

variable [Facts₀]

class Facts : Prop extends Facts₀ where

variable [Facts]
-- ==== Proof.KernelIdeal.Common.lean ====
/-
  What the parts of the proof about the idealized kernel program share.

  The program is a SparseCore call (thirty-two vector subcores each fill a 10000-word scratch with ones and copy it
  five times into their own 50000 words of the result `vals`), then a TensorCore pipeline over fifty blocks of the
  edge list that keeps a running signed maximum in a one-word SMEM window and adds one at the last block, then a
  reshape of that word. Here: the program as the SparseCore launch theorem sees it, the resource algebra (the
  handshakes' rounds beside the pipeline's staging cells' rounds beside the transfers' counters), and the places of
  the three arrays.
-/
import proofs.«216085_g6047313953276_cont_9to1_m_1310_46_alg».proof.Proof.Gen.KernelIdeal
import proofs.«216085_g6047313953276_cont_9to1_m_1310_46_alg».proof.Proof.Gen.KernelIdeal.Skeleton
import proofs.«216085_g6047313953276_cont_9to1_m_1310_46_alg».proof.Proof.Gen.KernelIdeal.Launch
import proofs.«216085_g6047313953276_cont_9to1_m_1310_46_alg».proof.Proof.Gen.KernelIdeal.Points
import Idealize.ShloMosaic.Lib.SparseCore.Launch
import Idealize.ShloMosaic.Lib.StableHlo.Run
import Idealize.ShloMosaic.Lib.Tactic
import Idealize.ShloMosaic.Lib.Batch
import Idealize.ShloMosaic.Lib.Pipeline.Kit
import Idealize.ShloMosaic.Lib.Pipeline.Regions

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The kernels' labels under the one TensorCore pipeline. -/
abbrev ΛP : Labels := Pipeline.Sig Λ₀ (Fin 1) fun p => (pcfgs (F := F) p).Adm
/-- The SparseCore call. -/
abbrev K : SparseCore.Cfg τ sig (ΛP (F := F)) 1 := sc (F := F)
theorem nCore_zero : (K (F := F)).nCore 0 = 2 := rfl
theorem nSub_zero : (K (F := F)).nSub 0 = 16 := rfl
/-- The body table under the pipeline. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipeline's staging cells' rounds. -/
abbrev UP : Type := URounds (GSem nD τ sig) Unit
/-- Handshakes, staging cells, and the counters the subcores' copies take their tokens from. -/
abbrev UU : Type := UH × (UP × Counters)

/-- The handshakes' component. -/
abbrev EH : Emb UH (MT nD τ sig (HIx 1) (Elt F) ℕ UU ℕ) := embL
/-- The staging cells' component. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP (MT nD τ sig (HIx 1) (Elt F) ℕ UU ℕ)).LandsIn (upEmb : UEmb _ (MT nD τ sig (HIx 1) (Elt F) ℕ UU ℕ)) := by
  unfold EP embR; infer_instance

/-! ## The arrays -/

/-- The edge list (the argument), `vals` (the ones), the one-word maximum and its reshape, on device `d`. -/
abbrev aLoc (d : Dev nD) : Loc nD τ sig := (SparseCore.T d).loc main_arg0
abbrev vLoc (d : Dev nD) : Loc nD τ sig := (SparseCore.T d).loc main_v0
abbrev xLoc (d : Dev nD) : Loc nD τ sig := (SparseCore.T d).loc main_v1
abbrev nLoc (d : Dev nD) : Loc nD τ sig := (SparseCore.T d).loc main_v2

/-- The prefetched tables' admissible contents: there is no table. -/
abbrev adm : (p : Fin 1) → (pcfgs (F := F) p).Adm := fun p => (cfgs p).toPCfg_adm

end Cert.Proof.KernelIdeal

end
-- ==== Proof.KernelIdeal.Chunks.lean ====
/-
  The 160 pieces of `vals`: vector subcore `s` of SparseCore `c` writes the five runs of 10000 words that start at
  100000 s + 50000 c + 10000 r, r = 0 … 4. They are pairwise disjoint and cover the 1600000 words, so the array held
  whole is the pieces held one by one.
-/
import proofs.«216085_g6047313953276_cont_9to1_m_1310_46_alg».proof.Proof.KernelIdeal.Common

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- `vals` as a vector subcore names it, and a subcore's scratch. -/
abbrev vV : Memref sig .scVector .hbm S1600000 .i32 := Memref.whole main_v0_scv
abbrev sS : Memref sig .scVector .vmem S10000 .i32 := Memref.whole cc0_scratch0

/-- The grid point of SparseCore `c`, subcore `s`. -/
def mkL (c : Fin 2) (s : Fin 16) : grid0.Coords :=
  fun | 0 => c | 1 => s | ⟨_ + 2, h⟩ => absurd h (Nat.not_lt.2 (Nat.le_add_left _ _))

theorem mkL_zero (c : Fin 2) (s : Fin 16) : ((mkL c s) 0).val = c.val := rfl
theorem mkL_one (c : Fin 2) (s : Fin 16) : ((mkL c s) 1).val = s.val := rfl

/-- Piece `r` of the subcore at grid point `L`, as the kernel slices it. -/
abbrev dstR (L : grid0.Coords) (r : Fin 5) : Memref sig .scVector .hbm S10000 .i32 :=
  (vV).slice (Rect.unit (s := S1600000) (k0_off2 L (BitVec.ofNat 32 (10000 * r.val))) S10000.size (k0_off2_inb L r)) (fun _ => rfl)

/-- Its words. -/
abbrev chunk (L : grid0.Coords) (r : Fin 5) : Finset S1600000.Idx := (dstR L r).view.set

/-- Where it starts. -/
def base (L : grid0.Coords) (r : Fin 5) : ℕ := 100000 * (L 1).val + 50000 * (L 0).val + 10000 * r.val

theorem mem_chunk (L : grid0.Coords) (r : Fin 5) (j : S1600000.Idx) :
    j ∈ chunk L r ↔ base L r ≤ (j 0).val ∧ (j 0).val < base L r + 10000 := by
  show j ∈ ((View.whole main_v0_scv).slice (Rect.unit (s := S1600000) (k0_off2 L (BitVec.ofNat 32 (10000 * r.val))) S10000.size (k0_off2_inb L r))).set ↔ _
  rw [View.set_slice_whole, Rect.mem_set_unit, k0_off2_eq L r]
  constructor
  · intro h; exact h 0
  · intro h a
    match a with
    | ⟨0, _⟩ => exact h

/-- The pieces, indexed by SparseCore, subcore and run. -/
abbrev Piece : Type := Fin 2 × Fin 16 × Fin 5
abbrev pieceSet (t : Piece) : Finset S1600000.Idx := chunk (mkL t.1 t.2.1) t.2.2

theorem pieces_disjoint : ∀ t ∈ (Finset.univ : Finset Piece), ∀ t' ∈ (Finset.univ : Finset Piece), t ≠ t' → Disjoint (pieceSet t) (pieceSet t') := by
  rintro ⟨c, s, r⟩ - ⟨c', s', r'⟩ - hne
  refine Finset.disjoint_left.mpr fun j h1 h2 => hne ?_
  dsimp only [pieceSet] at h1 h2
  rw [mem_chunk] at h1 h2
  unfold base at h1 h2
  rw [mkL_zero, mkL_one] at h1 h2
  have hc := c.isLt; have hc' := c'.isLt; have hs := s.isLt; have hs' := s'.isLt; have hr := r.isLt; have hr' := r'.isLt
  have e1 : c.val = c'.val := by omega
  have e2 : s.val = s'.val := by omega
  have e3 : r.val = r'.val := by omega
  exact Prod.ext (Fin.ext e1) (Prod.ext (Fin.ext e2) (Fin.ext e3))

theorem pieces_cover : (Finset.univ : Finset Piece).biUnion pieceSet = Finset.univ := by
  refine Finset.eq_univ_of_forall fun j => ?_
  have hj : (j 0).val < 1600000 := (j 0).isLt
  refine Finset.mem_biUnion.mpr ⟨(⟨((j 0).val % 100000) / 50000, by omega⟩, ⟨(j 0).val / 100000, by omega⟩, ⟨((j 0).val % 50000) / 10000, by omega⟩), Finset.mem_univ _, ?_⟩
  dsimp only [pieceSet]
  rw [mem_chunk]; unfold base; rw [mkL_zero, mkL_one]
  dsimp only
  omega

/-- `vals` held whole is its pieces held one by one. -/
theorem pts_pieces (d : Dev nD) (f : Buf (Elt F) (vLoc d)) :
    (vLoc d ↦{fullShare} f : sProp 𝕄) = bigSep Finset.univ fun t : Piece => vLoc d ↦[pieceSet t]{fullShare} f := by
  rw [← pointsTo_biUnion Finset.univ (ℓ := vLoc d) pieceSet pieces_disjoint, pieces_cover]; try rfl

end Cert.Proof.KernelIdeal

end
-- ==== Proof.KernelIdeal.Tile.lean ====
/-
  One vector subcore's task. It stores sixteen ones at a time into its 10000-word scratch, 625 times (after trip k the
  first 16 k words are ones), then starts five copies of the scratch, all on one semaphore, into its five runs of
  `vals`, and waits five times for one run's amount. Nothing touches the scratch or the runs between the first start
  and the last wait, so when the last wait returns every run holds what the scratch held: ones.
-/
import proofs.«216085_g6047313953276_cont_9to1_m_1310_46_alg».proof.Proof.KernelIdeal.Chunks
import Idealize.ShloMosaic.Lib.Pipeline.Value

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The arithmetic of the fill -/

theorem trips_eq : k0_t1_loop.trips = 625 := by decide +kernel

omit [FloatOps F] in
theorem pay1_apply (x : S16.Idx) : (k0_pay1 : IVec S16 32) x = 1#32 := by
  unfold k0_pay1; rw [shapeCast_self]; rfl

theorem off1_zero (k : Fin k0_t1_loop.trips) : k0_off1 k 0 = 16 * k.val := by rw [k0_off1_eq]; rfl

/-- Storing sixteen ones at words 16 k … 16 k + 15 over contents that are ones below 16 k leaves ones below 16 (k + 1). -/
theorem fill_step (k : Fin k0_t1_loop.trips) (f : (sS : Memref sig .scVector .vmem S10000 .i32).view.ty.Contents (Elt F))
    (hf : ∀ j : S10000.Idx, (j 0).val < 16 * k.val → f j = 1#32) :
    ∀ j : S10000.Idx, (j 0).val < 16 * (k.val + 1) →
      (sS : Memref sig .scVector .vmem S10000 .i32).view.writes (Elt F) f [⟨Rect.unit (s := S10000) (k0_off1 k) S16.size (k0_off1_inb k), k0_pay1⟩] j = 1#32 := by
  intro j hj
  by_cases h : 16 * k.val ≤ (j 0).val
  · have hx : (j 0).val - 16 * k.val < 16 := by omega
    let x : S16.Idx := fun | ⟨0, _⟩ => ⟨(j 0).val - 16 * k.val, hx⟩
    have hemb : (Rect.unit (s := S10000) (k0_off1 k) S16.size (k0_off1_inb k)).emb x = j := by
      funext a
      match a with
      | ⟨0, _⟩ =>
        apply Fin.ext
        show k0_off1 k 0 + 1 * ((j 0).val - 16 * k.val) = (j 0).val
        rw [off1_zero]; omega
    have hr := View.read_writes_cons_emb (v := (sS : Memref sig .scVector .vmem S10000 .i32).view) (Val := Elt F) (f := f)
      (Rect.unit (s := S10000) (k0_off1 k) S16.size (k0_off1_inb k)) k0_pay1 [] x
    rw [hemb] at hr
    exact hr.trans (pay1_apply x)
  · have hlt : (j 0).val < 16 * k.val := by omega
    rw [View.writes_singleton, View.write_of_not_mem]
    · exact hf j hlt
    · show j ∉ ((View.whole cc0_scratch0).slice (Rect.unit (s := S10000) (k0_off1 k) S16.size (k0_off1_inb k))).set
      rw [View.set_slice_whole, Rect.mem_set_unit]
      intro hm
      have := (hm 0).1
      rw [off1_zero] at this
      omega

/-- A run of `vals` overwritten whole by a vector of ones reads as ones through the run's own view; -/
theorem landed_read (d : Dev nD) (L : grid0.Coords) (r : Fin 5) (f0 : Buf (Elt F) (vLoc d)) (w : S10000.Idx → BitVec 32) (hw : ∀ x, w x = 1#32)
    (x : S10000.Idx) : (dstR L r).view.read (Elt F) ((dstR L r).view.writes (Elt F) f0 [⟨Rect.whole S10000, w⟩]) x = 1#32 := by
  have hr := View.read_writes_cons_emb (v := (dstR L r).view) (Val := Elt F) (f := f0) (Rect.whole S10000) w [] x
  rw [Rect.emb_whole_apply] at hr
  exact hr.trans (hw x)

omit [FloatOps F] in
/-- reading through the run's view is reading `vals` at the run's word; -/
theorem read_emb (d : Dev nD) (L : grid0.Coords) (r : Fin 5) (g : Buf (Elt F) (vLoc d)) (x : S10000.Idx) :
    (dstR L r).view.read (Elt F) g x = g ((dstR L r).view.emb x) := rfl

theorem landed_at (d : Dev nD) (L : grid0.Coords) (r : Fin 5) (f0 : Buf (Elt F) (vLoc d)) (w : S10000.Idx → BitVec 32) (hw : ∀ x, w x = 1#32)
    (x : S10000.Idx) : (dstR L r).view.writes (Elt F) f0 [⟨Rect.whole S10000, w⟩] ((dstR L r).view.emb x) = 1#32 :=
  (read_emb d L r _ x).symm.trans (landed_read d L r f0 w hw x)

/-- word `i` of `vals` inside the run is the run's word `i - base`; -/
theorem emb_of (L : grid0.Coords) (r : Fin 5) (i : S1600000.Idx) (hi : base L r ≤ (i 0).val ∧ (i 0).val < base L r + 10000) :
    ∃ x : S10000.Idx, (dstR L r).view.emb x = i := by
  have hx : (i 0).val - base L r < 10000 := by omega
  refine ⟨fun | ⟨0, _⟩ => ⟨(i 0).val - base L r, hx⟩, ?_⟩
  funext a
  match a with
  | ⟨0, _⟩ =>
    apply Fin.ext
    show k0_off2 L (BitVec.ofNat 32 (10000 * r.val)) 0 + 1 * ((i 0).val - base L r) = (i 0).val
    rw [k0_off2_eq L r]
    show base L r + 1 * ((i 0).val - base L r) = (i 0).val
    omega

/-- so the run holds ones at every one of its words. -/
theorem landed_ones (d : Dev nD) (L : grid0.Coords) (r : Fin 5) (f0 : Buf (Elt F) (vLoc d)) (w : S10000.Idx → BitVec 32) (hw : ∀ x, w x = 1#32) :
    ∀ i ∈ chunk L r, (dstR L r).view.writes (Elt F) f0 [⟨Rect.whole S10000, w⟩] i = 1#32 := by
  intro i hi
  rw [mem_chunk] at hi
  obtain ⟨x, rfl⟩ := emb_of L r i hi
  exact landed_at d L r f0 w hw x

/-! ## The task -/

section Tile

variable (d : Dev nD) (L : grid0.Coords)

abbrev cV (L : grid0.Coords) : Fin τ.nSC := (L 0).castLE hcore0
abbrev jV (L : grid0.Coords) : Fin τ.nSub := (L 1).castLE hsub0

/-- The subcore's one DMA semaphore. -/
abbrev cell (d : Dev nD) (L : grid0.Coords) : GSem nD τ sig := (V d (cV L) (jV L), .dma cc0_scratch1.sem)

/-- `vals` all ones. -/
def ones (d : Dev nD) : Buf (Elt F) (vLoc d) := fun _ => 1#32

/-- The subcore's five runs of `vals`, at contents `f`. -/
def runs (d : Dev nD) (L : grid0.Coords) (f : Buf (Elt F) (vLoc d)) : sProp 𝕄 :=
  bigSep Finset.univ fun r : Fin 5 => vLoc d ↦[chunk L r]{fullShare} f

omit [FloatOps F] in
theorem runs_eq (f : Buf (Elt F) (vLoc d)) :
    runs d L f = iprop((vLoc d ↦[chunk L 0]{fullShare} f) ∗ (vLoc d ↦[chunk L 1]{fullShare} f) ∗ (vLoc d ↦[chunk L 2]{fullShare} f)
      ∗ (vLoc d ↦[chunk L 3]{fullShare} f) ∗ (vLoc d ↦[chunk L 4]{fullShare} f)) :=
  bigSep_univ_eq_bigSepL [(0 : Fin 5), 1, 2, 3, 4] (by decide) (by decide) _

omit [FloatOps F] in
theorem ownSems0_V :
    (ownSems0 (V d (cV L) (jV L)) : sProp 𝕄)
      = iprop(semVal (cell d L) 0 ∗ bigSep ((ownCells (V d (cV L) (jV L))).erase (cell d L)) fun g => semVal g 0) := by
  unfold SparseCore.Cfg.ownSems0
  exact SparseCore.bigSep_erase' ((mem_ownCells (g := cell d L)).mpr ⟨rfl, by
      show (SemLoc.dma cc0_scratch1.sem : SemLoc sig).isScoped .scVector = true; decide⟩)

omit [FloatOps F] in
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
theorem pts_sS (f : Buf (Elt F) ((V d (cV L) (jV L)).loc cc0_scratch0)) :
    ((sS : Memref sig .scVector .vmem S10000 .i32).view.loc (V d (cV L) (jV L)) ↦{fullShare} f : sProp 𝕄) = (V d (cV L) (jV L)).loc cc0_scratch0 ↦{fullShare} f := rfl

omit [FloatOps F] in
theorem pts_dst (r : Fin 5) (f : Buf (Elt F) (vLoc d)) :
    ((dstR L r).view.loc (V d (cV L) (jV L)) ↦[(dstR L r).view.set]{fullShare} f : sProp 𝕄) = vLoc d ↦[chunk L r]{fullShare} f := rfl

/-- The fill loop's invariant: after `k` trips the scratch's first 16 k words are ones. -/
def inv (k : Nat) (_ : PUnit) : sProp 𝕄 :=
  iprop(∃ f, ⌜∀ j : S10000.Idx, (j 0).val < 16 * k → f j = 1#32⌝ ∗ ((sS : Memref sig .scVector .vmem S10000 .i32).view.loc (V d (cV L) (jV L)) ↦{fullShare} f))

set_option maxRecDepth 100000 in
set_option Elab.async false in
/-- The task on vector subcore `(L 0, L 1)`: the fill, five copies, five waits; its five runs come back as ones. -/
theorem tile_body (hF : (K (F := F)).Facts) (O : CellTallies nD τ sig (HIx 1)) (W : Waits sig (HIx 1)) (hO : ∀ g, O g none = 0)
    (f0 : Buf (Elt F) (vLoc d)) :
    iprop(levAts (K (F := F)).L (K (F := F)).lev ∗ emp ∗ runs d L f0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_ones L vV (Memref.isWhole_whole _) sS (Memref.isWhole_whole _) cc0_scratch1)
          fun _ => iprop(runs d L (ones d) ∗ scopedBufs (V d (cV L) (jV L)) ∗ scopedSems0 (V d (cV L) (jV L))
            ∗ ∃ W', ⌜∀ p ∈ W', p ∈ W ∨ p.2 = none⌝ ∗ owes (V d (cV L) (jV L)) O W') := by
  have _plan : Transfers.BatchOf (V d (cV L) (jV L)) (SemLoc.dma cc0_scratch1.sem) 5 (windows := true) := trivial
  simp only [cc0_sc_ones_eq_skeleton]; unfold cc0_sc_ones_skel
  rw [(K (F := F)).scopedBufs_V hF d (cV L) (jV L), SparseCore.Cfg.scopedSems0_V (Val := Elt F) d (cV L) (jV L), ownSems0_V, ownBufs_V, runs_eq, runs_eq]
  iintro ⟨#Hlv, -, ⟨H0, H1, H2, H3, H4⟩, ⟨⟨%fs, Hs⟩, Hbufs⟩, ⟨Hsem, Hsems⟩, HO⟩
  ihave Hmw := ((K (F := F)).mayWaits_none (thr := V d (cV L) (jV L)) hO) $$ Hlv
  ihave H0 := (Entails.of_eq (pts_dst (F := F) d L 0 f0).symm) $$ H0
  ihave H1 := (Entails.of_eq (pts_dst (F := F) d L 1 f0).symm) $$ H1
  ihave H2 := (Entails.of_eq (pts_dst (F := F) d L 2 f0).symm) $$ H2
  ihave H3 := (Entails.of_eq (pts_dst (F := F) d L 3 f0).symm) $$ H3
  ihave H4 := (Entails.of_eq (pts_dst (F := F) d L 4 f0).symm) $$ H4
  sl_exec
  ihave Hs' := (Entails.of_eq (pts_sS (F := F) d L fs).symm) $$ Hs
  sl_for (inv (F := F) d L) $$ [Hs']
  case region =>
    intro k _
    unfold inv
    iintro ⟨%f, %hf, Hs⟩
    sl_exec
    sl_step
    iexists _; isplitr
    · ipureintro; exact fill_step k f hf
    · iexact Hs
  · unfold inv
    iexists fs; isplitr
    · ipureintro; intro j hj; omega
    · iexact Hs'
  iintro %_ HI
  unfold inv
  icases HI with ⟨%f, %hf, Hs⟩
  have hall : ∀ j : S10000.Idx, f j = 1#32 := fun j => hf j (by
    show (j 0).val < 16 * k0_t1_loop.trips
    rw [trips_eq]; have hj : (j 0).val < 10000 := (j 0).isLt; omega)
  sl_exec
  have hw : ∀ x, tile_body.sl.dma0 d L f x = 1#32 := fun x => hall x
  sl_step
  isplitl [H0 H1 H2 H3 H4]
  · isplitl [H0]
    · iapply (Entails.of_eq ((pts_dst (F := F) d L 0 _).trans (pointsTo_congr (landed_ones d L 0 f0 _ hw)))); iexact H0
    isplitl [H1]
    · iapply (Entails.of_eq ((pts_dst (F := F) d L 1 _).trans (pointsTo_congr (landed_ones d L 1 f0 _ hw)))); iexact H1
    isplitl [H2]
    · iapply (Entails.of_eq ((pts_dst (F := F) d L 2 _).trans (pointsTo_congr (landed_ones d L 2 f0 _ hw)))); iexact H2
    isplitl [H3]
    · iapply (Entails.of_eq ((pts_dst (F := F) d L 3 _).trans (pointsTo_congr (landed_ones d L 3 f0 _ hw)))); iexact H3
    · iapply (Entails.of_eq ((pts_dst (F := F) d L 4 _).trans (pointsTo_congr (landed_ones d L 4 f0 _ hw)))); iexact H4
  isplitl [Hs Hbufs]
  · isplitl [Hs]
    · iexists _; iapply (Entails.of_eq (pts_sS (F := F) d L _)); iexact Hs
    · iexact Hbufs
  isplitl [Hsem Hsems]
  · isplitl [Hsem]
    · iexact Hsem
    · iexact Hsems
  iexists _; isplitr; swap; (· iexact HO)
  · ipureintro
    intro p hp
    simp only [Finset.mem_insert] at hp
    rcases hp with rfl | rfl | rfl | rfl | rfl | hp
    · exact .inr rfl
    · exact .inr rfl
    · exact .inr rfl
    · exact .inr rfl
    · exact .inr rfl
    · exact .inl hp

end Tile

end Cert.Proof.KernelIdeal

end
-- ==== Proof.KernelIdeal.Spec.lean ====
/-
  The numbers the TensorCore pipeline computes, as pure functions of the edge list.

  Point `t` of the grid sees block `t` of the edge list (32000 rows of 2), takes its signed maximum, and stores into
  the one-word window the maximum of that and the word kept from the point before (the least signed word at point 0),
  plus one at the last point. `acc X n` is the word after the first `n` points; after all fifty it is the maximum
  of the whole list plus one.
-/
import proofs.«216085_g6047313953276_cont_9to1_m_1310_46_alg».proof.Proof.Gen.KernelIdeal
import proofs.«216085_g6047313953276_cont_9to1_m_1310_46_alg».proof.Proof.Gen.KernelIdeal.Skeleton
import proofs.«216085_g6047313953276_cont_9to1_m_1310_46_alg».proof.Proof.Gen.KernelIdeal.Launch
import proofs.«216085_g6047313953276_cont_9to1_m_1310_46_alg».proof.Proof.Gen.KernelIdeal.Points

noncomputable section

namespace Cert.Proof.KernelIdeal

open Cert.KernelIdeal Cert.KernelIdeal.Gen
open Idealize.ShloMosaic

variable {F : FTy → Type} [FloatOps F]

/-- The signed maximum of one block, as the body computes it from the block it loaded. -/
def blockMax (x : Vec F S32000x2 .i32) : BitVec 32 :=
  extractAt ![0, 0, 0] (k1_pay1 (F := F) x) inpos_S1x1x1_p0_0_0

/-- The word the body stores at grid coordinates `i`, from the word `prev` it loaded and the block `x`. -/
def stepWord (i : grid1.Coords) (prev : BitVec 32) (x : Vec F S32000x2 .i32) : BitVec 32 :=
  let a : BitVec 32 := BitVec.ofNat 32 (i 0).val
  let v8 : BitVec 32 := Scalar.maxsi (Scalar.select (Scalar.cmpi .eq a 0#32) 2147483648#32 prev) (blockMax (F := F) x)
  Scalar.select (Scalar.cmpi .eq a 49#32) (Scalar.addi v8 1#32) v8

/-- Block `t` of the edge list `X`, as the pipeline's first window reads it. -/
def blk (X : IVec S1600000x2 32) (t : Fin cfg1.N) :
    Vec F S32000x2 .i32 :=
  ((cfg1.win 0).blk t).view.read (Elt F) X

/-- The one-word window after the first `n` points (what it holds before the first is never read). -/
def acc (X : IVec S1600000x2 32) : ℕ → BitVec 32
  | 0 => 0#32
  | n + 1 => if h : n < cfg1.N then stepWord (F := F) (grid1.coords ⟨n, h⟩) (acc X n) (blk (F := F) X ⟨n, h⟩) else acc X n

end Cert.Proof.KernelIdeal

end
-- ==== Proof.KernelIdeal.RegionBody.lean ====
/-
  The TensorCore pipeline region of the program: the body's run and the body obligation.

  The pipeline walks fifty grid points. Window 0 is block `t` of the edge list (32000 rows of 2), fetched at every point,
  its blocks tiling the array, so the body finds block `t` in the current staging buffer. Window 1 is the one-word result,
  never fetched and written back at the last point only, so the body finds anything at the first point and at a later
  point the word it left at the point before. The body loads the block, reads the word, and stores the step of the two
  (`stepWord`): the maximum of the block's signed maximum and the word found — the least signed word in place of the word
  found at the first point, which therefore does not matter —, plus one at the last point. The word after `t + 1` points
  is `acc X (t + 1)`, by `acc`'s defining equation.
-/
import proofs.«216085_g6047313953276_cont_9to1_m_1310_46_alg».proof.Proof.KernelIdeal.Common
import proofs.«216085_g6047313953276_cont_9to1_m_1310_46_alg».proof.Proof.KernelIdeal.Spec
import Idealize.ShloMosaic.Lib.Pipeline.Regions
import Idealize.ShloMosaic.Lib.Pipeline.Kit
import Idealize.ShloMosaic.Lib.Pipeline.Frame
import Idealize.ShloMosaic.Lib.Pipeline.FrameBody
import Idealize.ShloMosaic.Lib.Pipeline.Value
import Idealize.ShloMosaic.Lib.Tactic

noncomputable section

namespace Cert.Proof.KernelIdeal

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The numbers -/

/-- The one index of the one-word window. -/
abbrev i00 : S1x1.Idx := Shape.Idx.first (s := S1x1) (numel1_S1x1.symm ▸ Nat.one_pos)

/-- At the first grid coordinate the stored word does not depend on the word found. -/
theorem stepWord_zero (i : grid1.Coords) (h : (i 0).val = 0) (p p' : BitVec 32) (x : Vec F S32000x2 .i32) :
    stepWord (F := F) i p x = stepWord (F := F) i p' x := by
  unfold stepWord
  rw [h]
  rfl

/-- The window after one more point: the step from the word before it and the point's block. -/
theorem acc_succ (X : IVec S1600000x2 32) (t : Fin cfg1.N) :
    acc (F := F) X (t.val + 1) = stepWord (F := F) (grid1.coords t) (acc (F := F) X t.val) (blk (F := F) X t) := by
  show (if h : t.val < cfg1.N then stepWord (F := F) (grid1.coords ⟨t.val, h⟩) (acc (F := F) X t.val) (blk (F := F) X ⟨t.val, h⟩) else acc (F := F) X t.val) = _
  rw [dif_pos t.isLt]

/-- A point's first coordinate is the point. -/
theorem coords_val : ∀ t : Fin cfg1.N, ((grid1.coords t) 0).val = t.val :=
  (by decide +kernel : ∀ t : Fin grid1.N, ((grid1.coords t) 0).val = t.val)

/-! ## The body's run, on any whole staging memrefs -/

theorem zeros2 : (![0, 0] : Fin 2 → Nat) = fun _ => 0 := by funext a; fin_cases a <;> rfl

/-- From the block's buffer at `x0` and the word's buffer at `d1`, the body runs to its return leaving the block as it
    was and the word at the step from the word found and the block. -/
theorem bodyRun (c : Dev nD) (i : grid1.Coords) (arg1 : Memref sig .tc .vmem S32000x2 .i32) (harg1 : arg1.IsWhole)
    (arg2 : Memref sig .tc .smem S1x1 .i32) (harg2 : arg2.IsWhole) (x0 : Vec F S32000x2 .i32) (d1 : Vec F S1x1 .i32)
    (Q : PUnit → sProp 𝕄) :
    iprop(owns (c : Thread nD τ) arg1 fullShare x0 ∗ owns (c : Thread nD τ) arg2 fullShare d1
        ∗ (iprop(owns (c : Thread nD τ) arg1 fullShare x0
            ∗ owns (c : Thread nD τ) arg2 fullShare (fun _ => stepWord (F := F) i (d1 i00) x0)) -∗ Q ⟨⟩))
      ⊢ wp frame (wpE (defs₀ (F := F)) 𝒱₀ c none) Set.univ (cc1__max_body i arg1 harg1 arg2 harg2) Q := by
  simp only [cc1__max_body_eq_skeleton]; unfold cc1__max_body_skel
  unfold owns
  iintro ⟨⟨%f0, %hf0, H0⟩, ⟨%f1, %hf1, H1⟩, Hk⟩
  obtain rfl := harg1.eq_unread hf0
  obtain rfl := harg2.eq_unread hf1
  sl_exec
  sl_step
  iapply Hk
  isplitl [H0]
  · iexists _; isplitr; · ipureintro; exact hf0
    iexact H0
  iexists _; isplitr; swap; · iexact H1
  ipureintro
  sl_unfold_run_names
  rw [View.read_writes_eq_canon _ _ _ (fun y => ⟨_, List.mem_singleton_self _, View.mem_set_unit_zero zeros2 inb_S1x1_S1x1_0_0 y⟩),
    View.canon_unit_zero zeros2]
  funext _
  rw [View.readAt_eq_ld, View.readAt_eq_ld, hf0, hf1, View.ld_unit_zero zeros2, View.ld_unit_zero zeros2]
  rfl

/-! ## The pipeline's proof data -/

/-- The pipeline's proof data on core `c`: the edge list and the one-word result at their entry contents; after the body
    at point `t` the block's buffer as fetched and the word's buffer at the running word after `t + 1` points; the
    invariant is the scoped rest (no scratch, no semaphore of the body's own); nothing owed; the recorded waits below
    level 8. -/
def dats (_ : Fin 1) (c : Dev nD) : Pipeline.Dat τ (Elt F) (HIx 1) ℕ UU ℕ cfg1 c where
  A w := match w with
    | ⟨0, _⟩ => m (aLoc c)
    | ⟨1, _⟩ => m (xLoc c)
  after w t := match w with
    | ⟨0, _⟩ => blk (F := F) (m (aLoc c)) t
    | ⟨1, _⟩ => fun _ => acc (F := F) (m (aLoc c)) (t.val + 1)
  Φ _ := Pipeline.scopedRest spec1 c
  q _ := fullShare
  owed _ := 0
  recorded _ := {p | (K (F := F)).lev ((SparseCore.T c), p.1) p.2 ≤ 8}

theorem A_0 (c : Dev nD) : (dats m 0 c).A 0 = m (aLoc c) := by dsimp only [dats]
theorem A_1 (c : Dev nD) : (dats m 0 c).A 1 = m (xLoc c) := by dsimp only [dats]
theorem after_0 (c : Dev nD) (t : Fin cfg1.N) : (dats m 0 c).after 0 t = blk (F := F) (m (aLoc c)) t := by dsimp only [dats]
theorem after_1 (c : Dev nD) (t : Fin cfg1.N) :
    (dats m 0 c).after 1 t = fun _ => acc (F := F) (m (aLoc c)) (t.val + 1) := by dsimp only [dats]

/-- Window 0 is fetched at every point and its blocks tile the array: the body finds block `t`. -/
theorem before_0 (c : Dev nD) (t : Fin cfg1.N) (d) : (dats m 0 c).before 0 t d = blk (F := F) (m (aLoc c)) t := by
  unfold Dat.before; rw [if_pos (fetch1_0 t)]
  unfold Dat.fetched Dat.blockOf blk; rw [A_0]; try rfl

/-- At the first point the word's buffer holds anything. -/
theorem before_1_zero (c : Dev nD) (t : Fin cfg1.N) (h0 : t.val = 0) (d) : (dats m 0 c).before 1 t d = d :=
  Dat.before_out_reset _ 1 rfl t (.inl h0) d

/-- At a later point it holds what the body left at the point before: it is written back at the last point only. -/
theorem before_1_pos (c : Dev nD) (t : Fin cfg1.N) (h0 : t.val ≠ 0) (d) :
    (dats m 0 c).before 1 t d = fun _ => acc (F := F) (m (aLoc c)) t.val := by
  have hN : t.val < 50 := lt_of_lt_of_eq t.isLt (show cfg1.N = 50 from N_1)
  rw [Dat.before_out_kept _ 1 rfl t h0 (Bool.eq_false_iff.mpr fun h => by have := (flush1_1 _).mp h; dsimp only at this; omega)
    (fun _ => rfl) (fun _ _ => rfl), after_1]
  dsimp only
  rw [Nat.sub_add_cancel (Nat.pos_of_ne_zero h0)]

/-! ## The body obligation, at a generic point -/

/-- Each window's current staging memref at point `t`, as the pipeline passes it, and its wholeness. -/
abbrev ms0 (t : Fin cfg1.N) : Memref sig .tc .vmem S32000x2 .i32 := win1_0.stage (cfg1.slots t 0)
abbrev hs0 (t : Fin cfg1.N) : (ms0 t).IsWhole := hstage1_0 ((cfg1.slots t 0).cast nbuf1_0)
abbrev ms1 (t : Fin cfg1.N) : Memref sig .tc .smem S1x1 .i32 := win1_1.stage (cfg1.slots t 1)
abbrev hs1 (t : Fin cfg1.N) : (ms1 t).IsWhole := hstage1_1 ((cfg1.slots t 1).cast nbuf1_1)

/-- What the body is called with at point `t`, the windows one by one, -/
def bodyPre (c : Dev nD) (t : Fin cfg1.N) : sProp 𝕄 :=
  iprop((dats m 0 c).Φ t.castSucc ∗ (dats m 0 c).owesAt (none : HIx 1) t.castSucc
    ∗ (∃ d, owns (c : Thread nD τ) (ms0 t) fullShare ((dats m 0 c).before 0 t d))
    ∗ (∃ d, owns (c : Thread nD τ) (ms1 t) fullShare ((dats m 0 c).before 1 t d)))

/-- and what it returns. -/
def bodyPost (c : Dev nD) (t : Fin cfg1.N) : sProp 𝕄 :=
  iprop((dats m 0 c).Φ t.succ ∗ (dats m 0 c).owesAt (none : HIx 1) t.succ
    ∗ owns (c : Thread nD τ) (ms0 t) fullShare ((dats m 0 c).after 0 t)
    ∗ owns (c : Thread nD τ) (ms1 t) fullShare ((dats m 0 c).after 1 t))

/-- The body at any point: the block's buffer holds block `t`; the word's buffer holds anything at the first point, where
    the stored word does not depend on it, and the running word at a later one; the run applies, and the word it leaves is
    the running word's next value. The invariant and what the core owes pass through. -/
theorem sound_body (c : Dev nD) (t : Fin cfg1.N) :
    bodyPre m c t ⊢ wp frame (wpE (defs₀ (F := F)) 𝒱₀ c none) Set.univ (bodyAt1 t) (fun _ => bodyPost m c t) := by
  unfold bodyPre bodyPost bodyAt1
  simp only [before_0]
  rw [show (dats m 0 c).Φ t.succ = (dats m 0 c).Φ t.castSucc from rfl,
    show (dats m 0 c).owesAt (none : HIx 1) t.succ = (dats m 0 c).owesAt (none : HIx 1) t.castSucc from rfl,
    after_0, after_1, acc_succ]
  by_cases h0 : t.val = 0
  · simp only [before_1_zero m c t h0]
    iintro ⟨HΦ, Ho, ⟨%d0, H0⟩, ⟨%d1, H1⟩⟩
    iapply (bodyRun c (grid1.coords t) _ _ _ _ (blk (F := F) (m (aLoc c)) t) d1 _)
    isplitl [H0]; · iexact H0
    isplitl [H1]; · iexact H1
    iintro ⟨H0, H1⟩
    isplitl [HΦ]; · iexact HΦ
    isplitl [Ho]; · iexact Ho
    isplitl [H0]; · iexact H0
    rw [stepWord_zero (grid1.coords t) ((coords_val t).trans h0) (acc (F := F) (m (aLoc c)) t.val) (d1 i00)]
    iexact H1
  · simp only [before_1_pos m c t h0]
    iintro ⟨HΦ, Ho, ⟨%d0, H0⟩, ⟨%d1, H1⟩⟩
    iapply (bodyRun c (grid1.coords t) _ _ _ _ (blk (F := F) (m (aLoc c)) t) (fun _ => acc (F := F) (m (aLoc c)) t.val) _)
    isplitl [H0]; · iexact H0
    isplitl [H1]; · iexact H1
    iintro ⟨H0, H1⟩
    isplitl [HΦ]; · iexact HΦ
    isplitl [Ho]; · iexact Ho
    isplitl [H0]; · iexact H0
    iexact H1

/-- The body obligation, at every point. -/
theorem body_obligation (c : Dev nD) : Pipeline.BodyObligation (dats m 0 c) (defs₀ (F := F)) 𝒱₀ (none : HIx 1) Set.univ := fun t => by
  rw [bigSep_W1, bigSep_W1]
  exact sound_body m c t

end Cert.Proof.KernelIdeal

end
-- ==== Proof.KernelIdeal.Region.lean ====
/-
  The TensorCore pipeline region of the program, as a record the launch can use.

  The region is entered from the edge list and the one-word result held whole, the core owing nothing with the waits it has
  recorded below level 8. The edge list is an input: no write-back touches it. The result is written back at the last
  point only, with the word after all fifty points, and its one-word block is the whole array. The loop's own waits are
  recorded at the index of level 0, the body records none, so what the core has recorded stays below level 8. There is no
  scratch and no semaphore of the body's own: the invariant between points is the scoped rest, nothing else enters the
  region and nothing bypasses it.
-/
import proofs.«216085_g6047313953276_cont_9to1_m_1310_46_alg».proof.Proof.KernelIdeal.RegionBody

noncomputable section

namespace Cert.Proof.KernelIdeal

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The arrays at the region's two ends -/

/-- The edge list is an input: no write-back touches it. -/
theorem arrAt_0 (c : Dev nD) : (dats m 0 c).arrAt 0 cfg1.N = m (aLoc c) :=
  ((dats m 0 c).arrAt_in 0 rfl _).trans (A_0 m c)

/-- The last point. -/
abbrev tLast : Fin cfg1.N := ⟨49, by decide⟩

/-- The one-word block is the whole one-word array. -/
theorem cover_1 : ∀ i : ((cfg1.win 1).blk tLast).view.ty.Idx, i ∈ ((cfg1.win 1).blk tLast).view.set := by decide

/-- The result is written back at the last point only, with the word after all fifty points, over the whole array. -/
theorem arrAt_1 (c : Dev nD) : (dats m 0 c).arrAt 1 cfg1.N = fun _ => acc (F := F) (m (aLoc c)) 50 := by
  refine (dats m 0 c).arrAt_eq_of_cover 1 (fun _ => acc (F := F) (m (aLoc c)) 50) (fun t hf => ?_) (fun i => ?_)
  · have h49 : t.val = 49 := by
      have hN : t.val < 50 := lt_of_lt_of_eq t.isLt (show cfg1.N = 50 from N_1)
      have := (flush1_1 t).mp hf; omega
    show (dats m 0 c).after 1 t = _
    rw [after_1, h49]
    funext x
    rw [View.read_apply]
    exact (cast_eq _ _).symm
  · exact ⟨tLast, (flush1_1 _).mpr rfl, cover_1 i⟩

theorem hshare (c : Dev nD) : ∀ w, (dats m 0 c).share w = fullShare := (dats m 0 c).share_full fun _ => rfl

/-- ENTRY: the two arrays held whole are the pipeline's arrays at the proof data's entry contents. -/
theorem arrays_entry (c : Dev nD) :
    iprop((aLoc c ↦{fullShare} m (aLoc c)) ∗ (xLoc c ↦{fullShare} m (xLoc c)))
      ⊢ ((dats m 0 c).arrays ((dats m 0 c).arrAt · 0) : sProp 𝕄) := by
  rw [Pipeline.arrays_eq (Pipeline.pin (pcfgs (F := F)) adm) (dats m) 0 c launch1.arr_whole (hshare m c), bigSep_W1]
  exact .rfl

/-- EXIT: the pipeline's arrays at their final contents are the edge list as it was and the result at the word after
    all fifty points. -/
theorem arrays_exit (c : Dev nD) :
    ((dats m 0 c).arrays ((dats m 0 c).arrAt · cfg1.N) : sProp 𝕄)
      ⊢ iprop((aLoc c ↦{fullShare} m (aLoc c)) ∗ (xLoc c ↦{fullShare} (fun _ => acc (F := F) (m (aLoc c)) 50))) := by
  rw [Pipeline.arrays_eq (Pipeline.pin (pcfgs (F := F)) adm) (dats m) 0 c launch1.arr_whole (hshare m c), bigSep_W1, arrAt_0, arrAt_1]

/-! ## What the core owes at the region's two ends -/

/-- ENTRY: the waits recorded before the region sit below level 8, which is the proof data's bound. -/
theorem owes_entry (c : Dev nD) :
    iprop(∃ W, ⌜(K (F := F)).WBelow (SparseCore.T c) W 8⌝ ∗ owes (SparseCore.T c) (0 : CellTallies nD τ sig (HIx 1)) W)
      ⊢ ((dats m 0 c).owesAt (none : HIx 1) 0 : sProp 𝕄) := by
  unfold Pipeline.Dat.owesAt Pipeline.owesWithin
  iintro ⟨%W, %hW, HO⟩
  iexists W; isplitr
  · ipureintro; exact fun p hp => Or.inl (hW p (Finset.mem_coe.mp hp))
  iexact HO

/-- EXIT: the loop's own waits are recorded at the index of level 0, the others stayed within the bound. -/
theorem owes_exit (c : Dev nD) :
    ((dats m 0 c).owesAt (none : HIx 1) (Fin.last cfg1.N) : sProp 𝕄)
      ⊢ iprop(∃ W, ⌜(K (F := F)).WBelow (SparseCore.T c) W 8⌝ ∗ owes (SparseCore.T c) (0 : CellTallies nD τ sig (HIx 1)) W) := by
  unfold Pipeline.Dat.owesAt Pipeline.owesWithin
  iintro ⟨%W, %hW, HO⟩
  iexists W; isplitr
  · ipureintro
    intro p hp
    rcases hW (Finset.mem_coe.mpr hp) with h | ⟨w, s, rfl⟩
    · exact h
    · exact Nat.zero_le 8
  iexact HO

/-! ## The region as the launch uses it -/

set_option backward.isDefEq.respectTransparency.types false in
/-- The region: the windows' decided layout, no semaphore of the body's own, the body obligation; entered from the two arrays
    held whole and the core owing nothing with its recorded waits below level 8, left with the edge list as it was, the
    result at the word after all fifty points, and the same of what the core owes. Nothing enters the invariant but the
    scoped rest, nothing bypasses the region. -/
def reg1 : Pipeline.RegionSeg (pcfgs (F := F)) adm (dats m) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation m c).loose
  hwaits := Pipeline.hwaits_of_owed_zero _ _ _ _ (K (F := F)).L (K (F := F)).lev 0 fun _ _ => rfl
  pre c := iprop((aLoc c ↦{fullShare} m (aLoc c)) ∗ (xLoc c ↦{fullShare} m (xLoc c))
    ∗ ∃ W, ⌜(K (F := F)).WBelow (SparseCore.T c) W 8⌝ ∗ owes (SparseCore.T c) (0 : CellTallies nD τ sig (HIx 1)) W)
  post c := iprop((aLoc c ↦{fullShare} m (aLoc c)) ∗ (xLoc c ↦{fullShare} (fun _ => acc (F := F) (m (aLoc c)) 50))
    ∗ ∃ W, ⌜(K (F := F)).WBelow (SparseCore.T c) W 8⌝ ∗ owes (SparseCore.T c) (0 : CellTallies nD τ sig (HIx 1)) W)
  X _ := iprop(emp)
  Y _ := iprop(emp)
  Z _ := iprop(emp)
  hentry c := by
    iintro ⟨⟨Ha, Hx, HO⟩, -, -⟩
    imodintro
    isplitl [Ha Hx]
    · iapply (arrays_entry m c)
      isplitl [Ha]; · iexact Ha
      iexact Hx
    isplitr
    · unfold Pipeline.prefHeld; rw [show (Finset.univ : Finset (Fin 0)) = ∅ from rfl, BI.bigSep_empty]; iempintro
    isplitl [HO]
    · iapply (owes_entry m c); iexact HO
    isplitr <;> iempintro
  hin c := by
    show iprop(emp ∗ Pipeline.prefHeld (pcfgs (F := F) 0).pre c (fun _ => fullShare) (adm (F := F) 0).1 ∗ Pipeline.scopedRest spec1 c)
      ⊢ (Pipeline.scopedRest spec1 c : sProp 𝕄)
    iintro ⟨-, -, Hr⟩; iexact Hr
  hout c := by
    show (Pipeline.scopedRest spec1 c : sProp 𝕄)
      ⊢ iprop(emp ∗ Pipeline.ownSems0 (fun k : PEmpty => k.elim) c ∗ Pipeline.scopedRest spec1 c)
    iintro Hr
    isplitr; · iempintro
    isplitr
    · unfold Pipeline.ownSems0; rw [show (Finset.univ : Finset PEmpty) = ∅ from rfl, BI.bigSep_empty]; iempintro
    iexact Hr
  hexit c := by
    iintro ⟨Ha, HO, -, -⟩
    imodintro
    ihave H := (arrays_exit m c) $$ Ha
    icases H with ⟨Ha, Hx⟩
    isplitl [Ha]; · iexact Ha
    isplitl [Hx]; · iexact Hx
    iapply (owes_exit m c); iexact HO

theorem reg1_pre (c : Dev nD) : (reg1 m).pre c
    = iprop((aLoc c ↦{fullShare} m (aLoc c)) ∗ (xLoc c ↦{fullShare} m (xLoc c))
      ∗ ∃ W, ⌜(K (F := F)).WBelow (SparseCore.T c) W 8⌝ ∗ owes (SparseCore.T c) (0 : CellTallies nD τ sig (HIx 1)) W) := rfl

theorem reg1_post (c : Dev nD) : (reg1 m).post c
    = iprop((aLoc c ↦{fullShare} m (aLoc c)) ∗ (xLoc c ↦{fullShare} (fun _ => acc (F := F) (m (aLoc c)) 50))
      ∗ ∃ W, ⌜(K (F := F)).WBelow (SparseCore.T c) W 8⌝ ∗ owes (SparseCore.T c) (0 : CellTallies nD τ sig (HIx 1)) W) := rfl

set_option backward.isDefEq.respectTransparency.types false in
/-- The region's step on core `c`, at the top of the main program: from the boundary, the region's entry state, the level
    facts and the pipeline's ghost state, the region's call runs to the boundary and the exit state for the continuation. -/
theorem region_wp (c : Dev nD) {α : Type} (k : PUnit → Prog (TpuEff nD τ sig (Elt F) (ΛP (F := F)) .tc) α) (Q : α → sProp 𝕄) :
    iprop((iprop(boundary (SparseCore.T c) ∗ (reg1 m).post c) -∗ wp frame (wpE (D (F := F)) 𝒱 (SparseCore.T c) none) Set.univ (k ⟨⟩) Q)
        ∗ boundary (SparseCore.T c) ∗ (reg1 m).pre c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱 (SparseCore.T c) none) Set.univ (.op (.customCall (Pipeline.entry 0) ()) k) Q :=
  Pipeline.RegionSeg.wp (pcfgs (F := F)) adm (dats m) none cellOf_inj EP defs₀ 𝒱₀ (K (F := F)).L (K (F := F)).lev (reg1 m) c none
    (by intro u hu; cases hu) k Q

end Cert.Proof.KernelIdeal

end
-- ==== Proof.KernelIdeal.Launch.lean ====
/-
  The launch. What the SparseCore call carries (each SparseCore its half of `vals`, each vector subcore its five runs,
  back as ones), the launch theorem's obligations, and @main on the TensorCore: the call (`vals` out whole, back as
  ones), the pipeline region (the edge list kept, the one-word window left at the running maximum after fifty
  points), the reshape of that word. The run's post names all three results.
-/
import proofs.«216085_g6047313953276_cont_9to1_m_1310_46_alg».proof.Proof.KernelIdeal.Tile
import proofs.«216085_g6047313953276_cont_9to1_m_1310_46_alg».proof.Proof.KernelIdeal.Region

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_split held_sdiff_result wp_hlo_within)

variable (m : (ℓ : Loc nD τ sig) → Buf (Elt F) ℓ) (ρ : Dev nD → PrngReg)
variable [FloatOps F]

/-! ## What the handshakes carry -/

/-- SparseCore `c` is handed the runs of its sixteen subcores; subcore `s` its five. -/
def P : (K (F := F)).Pay (nD := nD) (Val := Elt F) (Name := ℕ) (U := UU) where
  st := fun q d c => match q with | 0 => bigSep Finset.univ fun s : Fin 16 => runs d (mkL (Fin.cast nCore_zero c) s) (m (vLoc d))
  dn := fun q d c => match q with | 0 => bigSep Finset.univ fun s : Fin 16 => runs d (mkL (Fin.cast nCore_zero c) s) (ones d)
  go := fun q d c i => match q with | 0 => runs d (mkL (Fin.cast nCore_zero c) (Fin.cast nSub_zero i)) (m (vLoc d))
  td := fun q d c i => match q with | 0 => runs d (mkL (Fin.cast nCore_zero c) (Fin.cast nSub_zero i)) (ones d)
  x := fun _ _ => iprop(emp)

omit [FloatOps F] in
instance runs_storable (d : Dev nD) (L : grid0.Coords) (f : Buf (Elt F) (vLoc d)) : BI.Storable (upEmb : UEmb _ 𝕄) (runs d L f) := by
  unfold runs; infer_instance

instance P_storable : (P (F := F) m).IsStorable where
  st q d c := match q with
    | 0 => (inferInstance : BI.Storable (upEmb : UEmb _ 𝕄) (bigSep Finset.univ fun s : Fin 16 => runs d (mkL (Fin.cast nCore_zero c) s) (m (vLoc d))))
  dn q d c := match q with
    | 0 => (inferInstance : BI.Storable (upEmb : UEmb _ 𝕄) (bigSep Finset.univ fun s : Fin 16 => runs d (mkL (Fin.cast nCore_zero c) s) (ones d)))
  go q d c i := match q with
    | 0 => (inferInstance : BI.Storable (upEmb : UEmb _ 𝕄) (runs d (mkL (Fin.cast nCore_zero c) (Fin.cast nSub_zero i)) (m (vLoc d))))
  td q d c i := match q with
    | 0 => (inferInstance : BI.Storable (upEmb : UEmb _ 𝕄) (runs d (mkL (Fin.cast nCore_zero c) (Fin.cast nSub_zero i)) (ones d)))

/-! ## The launch theorem's obligations -/

theorem defs₀_vector (c : Fin τ.nSC) (s : Fin τ.nSub) :
    defs₀ (F := F) (.scVector c s) 0 ()
      = SparseCore.onTile hcore0 hsub0 (fun c s => cc0_sc_ones (fun | 0 => c | 1 => s | ⟨_ + 2, h⟩ => absurd h (Nat.not_lt.2 (Nat.le_add_left _ _)))
          vV (Memref.isWhole_whole _) sS (Memref.isWhole_whole _) cc0_scratch1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (mkL ⟨_, hc.1⟩ ⟨_, hc.2⟩) facts O W hO (m (vLoc d))).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => runs d (mkL (Fin.cast nCore_zero c) s) (m (vLoc d))) ⊢ |={Set.univ}=> iprop(
      (bigSep Finset.univ fun i : Fin ((K (F := F)).nSub 0) => runs d (mkL (Fin.cast nCore_zero c) (Fin.cast nSub_zero i)) (m (vLoc d)))
      ∗ ((bigSep Finset.univ fun i : Fin ((K (F := F)).nSub 0) => runs d (mkL (Fin.cast nCore_zero c) (Fin.cast nSub_zero i)) (ones d))
          -∗ bigSep Finset.univ fun s : Fin 16 => runs d (mkL (Fin.cast nCore_zero c) s) (ones d)))
  rw [bigSep_tasks (F := F) (fun s => runs d (mkL (Fin.cast nCore_zero c) s) (m (vLoc d))),
    bigSep_tasks (F := F) (fun s => runs d (mkL (Fin.cast nCore_zero c) s) (ones d))]
  iintro H; imodintro
  isplitl [H]; · iexact H
  iintro H; iexact H

/-! ## The launch element: the handshakes' rounds, the staging cells' rounds; no counter yet -/

/-- What @main's proof starts from beside the launch's: the staging cells' ghost state and duty tokens. -/
def G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

def u₀' : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] in
theorem own_EP (x : UP) :
    (BI.own (((Emb.inl : Emb UP (UP × Counters)).trans (embR : Emb (UP × Counters) 𝕄)) x) : sProp 𝕄) = BI.own (EP x) := rfl

theorem hu₀ : (ownU (u₀' (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀'
  iintro Hu
  ihave H := (ownU_pair _ _) $$ Hu
  icases H with ⟨HH, HR⟩
  ihave H2 := (own_pair_emb (embR : Emb (UP × Counters) 𝕄) _ _) $$ HR
  icases H2 with ⟨HP, -⟩
  ihave HP := (Entails.of_eq (own_EP (F := F) _)) $$ HP
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    have e1 : (bigSep Finset.univ fun c : Dev nD => bigSep Finset.univ fun p : Fin 1 => Pipeline.cellsGhost (Pipeline.pin (pcfgs (F := F)) adm) EP p c : sProp 𝕄)
        = bigSep Finset.univ fun c : Dev nD => Pipeline.cellsGhost (Pipeline.pin (pcfgs (F := F)) adm) EP 0 c :=
      bigSep_congr fun c _ => bigSep_univ_of_subsingleton (0 : Fin 1)
    have e2 : (bigSep Finset.univ fun c : Dev nD => bigSep Finset.univ fun p : Fin 1 => Pipeline.toksInit (Pipeline.pin (pcfgs (F := F)) adm) EP p c : sProp 𝕄)
        = bigSep Finset.univ fun c : Dev nD => Pipeline.toksInit (Pipeline.pin (pcfgs (F := F)) adm) EP 0 c :=
      bigSep_congr fun c _ => bigSep_univ_of_subsingleton (0 : Fin 1)
    ihave Hg := (Entails.of_eq e1) $$ Hg
    ihave Ht := (Entails.of_eq e2) $$ Ht
    isplitl [Hg]
    · iexact Hg
    · iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (Wv : (b : Ref sig .tc) → Buf (Elt F) ((d.tc : Thread nD τ).loc b)) :
    (unscopedBufs d Wv : sProp 𝕄) = iprop((aLoc d ↦{fullShare} Wv main_arg0) ∗ (vLoc d ↦{fullShare} Wv main_v0) ∗ (xLoc d ↦{fullShare} Wv main_v1) ∗ nLoc d ↦{fullShare} Wv main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

omit [FloatOps F] in
/-- `vals` held whole is every subcore's runs. -/
theorem pts_runs (d : Dev nD) (f : Buf (Elt F) (vLoc d)) :
    (vLoc d ↦{fullShare} f : sProp 𝕄) = bigSep Finset.univ fun c : Fin 2 => bigSep Finset.univ fun s : Fin 16 => runs d (mkL c s) f := by
  rw [pts_pieces, bigSep_univ_prod]
  refine bigSep_congr fun c _ => ?_
  rw [bigSep_univ_prod]
  rfl

theorem st0_eq (d : Dev nD) : (bigSep Finset.univ fun c : Fin ((K (F := F)).nCore 0) => (P m).st 0 d c) = (vLoc d ↦{fullShare} m (vLoc d) : sProp 𝕄) := by
  show (bigSep (Finset.univ : Finset (Fin 2)) fun c => bigSep Finset.univ fun s : Fin 16 => runs d (mkL c s) (m (vLoc d))) = _
  rw [pts_runs]
theorem dn0_eq (d : Dev nD) : (bigSep Finset.univ fun c : Fin ((K (F := F)).nCore 0) => (P m).dn 0 d c) = (vLoc d ↦{fullShare} ones d : sProp 𝕄) := by
  show (bigSep (Finset.univ : Finset (Fin 2)) fun c => bigSep Finset.univ fun s : Fin 16 => runs d (mkL c s) (ones d)) = _
  rw [pts_runs]

/-- The TensorCore's handshake state before call `n`, but for what it owes. -/
def tcTail (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

omit [FloatOps F] in
/-- After the one call the TensorCore owes nothing. -/
theorem tcSt_split (d : Dev nD) (n : ℕ) (hn : 1 ≤ n) :
    ((K (F := F)).tcSt EH d n : sProp 𝕄)
      = iprop((∃ W, ⌜(K (F := F)).WBelow (T d) W (8 * n)⌝ ∗ owes (T d) (0 : CellTallies nD τ sig (HIx 1)) W) ∗ tcTail (F := F) d n) := by
  unfold SparseCore.Cfg.tcSt tcTail
  rw [(K (F := F)).Otc_end d hn]

abbrev x' : DevRef τ sig := Proc.devRef .tc (main_v1 : Ref sig .tc)
abbrev n' : DevRef τ sig := Proc.devRef .tc (main_v2 : Ref sig .tc)
/-- The reshape of the one-word window. -/
abbrev opR : HloOp τ sig (Elt F) := StableHlo.reshape main_v1 main_v2 rfl shapeCasts_S1x1_S_
abbrev S2 : Finset (DevRef τ sig) := {x', n'}

omit [FloatOps F] in
theorem held_S2 (d : Dev nD) (Wv : Valuation τ sig (Elt F)) :
    (held (T d) S2 Wv : sProp 𝕄) = iprop((xLoc d ↦{fullShare} Wv x') ∗ nLoc d ↦{fullShare} Wv n') := by
  unfold held S2
  rw [SparseCore.bigSep_insert' (by decide), bigSep_singleton]

theorem hR : (opR (F := F)).bufs ⊆ S2 := show ({x', n'} : Finset (DevRef τ sig)) ⊆ S2 by decide

/-- The TensorCore's buffers after the region: the window at the last running word. -/
def V1 (d : Dev nD) : Valuation τ sig (Elt F) :=
  Function.update (fun b => m (d, b)) x' (fun _ => acc (F := F) (m (aLoc d)) 50)
theorem V1_x (d : Dev nD) : V1 m d x' = fun _ => acc (F := F) (m (aLoc d)) 50 := Function.update_self _ _ _
theorem V1_n (d : Dev nD) : V1 m d n' = m (nLoc d) := Function.update_of_ne (show n' ≠ x' by decide) _ _

/-- The third result: the reshape of the window. -/
def nVal (d : Dev nD) : Buf (Elt F) (nLoc d) := (opR (F := F)).result (V1 m d) n'

theorem nVal_apply (d : Dev nD) (i : S_.Idx) : nVal m d i = acc (F := F) (m (aLoc d)) 50 := by
  unfold nVal
  rw [StableHlo.reshape_result, V1_x]
  rfl

/-- What @main leaves the claim: the edge list as launched, `vals` all ones, the reshaped word. -/
abbrev FIN (d : Dev nD) : sProp 𝕄 :=
  iprop((aLoc d ↦{fullShare} m (aLoc d)) ∗ (vLoc d ↦{fullShare} ones d) ∗ nLoc d ↦{fullShare} nVal m d)

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscopedBufs_eq]
  simp only [main, wp_bind, wp_pure]
  iintro ⟨#Hctx, Hst, ⟨Hb, ⟨Ha, Hv, Hx, Hn⟩, -, -⟩, ⟨Hcg, Htk⟩⟩
  ihave Hlev := (SparseCore.Cfg.ctx_levAts κ) $$ Hctx
  -- the call: `vals` out, whole; back as ones
  iapply ((K (F := F)).wp_run (D (F := F)) 𝒱 (EH := EH) (P := P m) κ d 0) $$ [Hst Hv Hb Ha Hx Hn Hcg Htk]
  isplitr; · iexact Hctx
  isplitl [Hst]; · iexact Hst
  isplitl [Hv]
  · rw [st0_eq]; iexact Hv
  iintro ⟨Hst, Hdn⟩
  ihave Hv := (Entails.of_eq (dn0_eq m d)) $$ Hdn
  ihave Hst' := (Entails.of_eq (tcSt_split (F := F) d ((0 : Fin 1).val + 1) (le_refl 1))) $$ Hst
  icases Hst' with ⟨HO, Htail⟩
  -- the region: the edge list and the window in, the window back at the last running word
  iapply ((K (F := F)).wp_liftProg (D (F := F)) 𝒱 (SparseCore.T d) Set.univ none (.op (.customCall (Pipeline.entry 0) ()) .ret) _)
  iapply (region_wp m d Prog.ret _)
  isplitr [Hb Ha Hx HO Hcg Htk]
  swap
  · isplitl [Hb]; · iexact Hb
    isplitl [Ha Hx HO]
    · rw [reg1_pre]
      isplitl [Ha]; · iexact Ha
      isplitl [Hx]; · iexact Hx
      iexact HO
    isplitr; · iexact Hlev
    isplitl [Hcg]; · iexact Hcg
    iexact Htk
  iintro ⟨Hb, Hpost⟩
  ihave Hpost := (Entails.of_eq (reg1_post m d)) $$ Hpost
  icases Hpost with ⟨Ha, Hx, HO⟩
  rw [wp_ret]; imodintro
  -- the reshape
  iapply (wp_hlo_within 𝒱 (SparseCore.T d) none Set.univ (op := opR) (S := S2) hR (V := V1 m d)) $$ [Hb Hx Hn]
  · isplitl [Hb]; · iexact Hb
    rw [held_S2, V1_x, V1_n]
    isplitl [Hx]; · iexact Hx
    iexact Hn
  iintro ⟨Hb, Hheld⟩
  ihave Hh := (Entails.of_eq (held_S2 (F := F) d _)) $$ Hheld
  icases Hh with ⟨-, Hn⟩
  rw [wp_ret]; imodintro; imodintro
  isplitl [HO Htail]
  · iapply (Entails.of_eq (tcSt_split (F := F) d 1 (le_refl 1)).symm)
    isplitl [HO]; · iexact HO
    iexact Htail
  isplitl [Ha]; · iexact Ha
  isplitl [Hv]; · iexact Hv
  iexact Hn

def fq (d : Dev nD) (s' : Phys nD τ sig (Elt F)) : Prop :=
  s'.mem.mem (aLoc d) = m (aLoc d) ∧ s'.mem.mem (vLoc d) = ones d ∧ s'.mem.mem (nLoc d) = nVal m d

theorem hfin (d : Dev nD) (s' : Phys nD τ sig (Elt F)) : iprop(FIN m d ∗ SI s') ⊢ (⌜fq m d s'⌝ : sProp 𝕄) := by
  iintro ⟨⟨Ha, Hv, Hn⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := vLoc d) (I := Finset.univ) (q := fullShare) (f := ones d))) $$ [HSI Hv]
  · isplitl [HSI] <;> iassumption
  icases H with ⟨%h2, HSI, -⟩
  ihave H := (SI_pointsTo_agree (st := s') (ℓ := nLoc d) (I := Finset.univ) (q := fullShare) (f := nVal m d)) $$ [HSI Hn]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- Every final memory: the edge list unchanged, `vals` all ones, the third result the reshaped last running word. -/
def QC : PUnit × MemSt nD τ sig (Elt F) → Prop := fun r =>
  ∀ c : Dev nD, r.2.mem (aLoc c) = m (aLoc c) ∧ r.2.mem (vLoc c) = ones c ∧ r.2.mem (nLoc c) = nVal m c

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (G (F := F)) (FIN m) (u₀' (F := F)) (sep_elim_left.trans (hu₀ m)) (hmain m ρ) (fq m) (hfin m) (QC m) (fun _ h => h)

end Cert.Proof.KernelIdeal

end
-- ==== Proof.KernelIdeal.MaxBlocks.lean ====
/-
  The fifty block maxima make the maximum of the whole edge list.

  Signed maximum on 32-bit words is associative, commutative and idempotent, so a fold of it from the least word over
  a disjoint union is the maximum of the two folds. The body's block maximum is the fold over all entries of the
  block; entry `x` of block `t` is entry (32000 t + x₀, x₁) of the edge list, so the block's entries are exactly
  those in rows `32000 t … 32000 t + 31999`, and the rows below `32000 (n + 1)` are the rows below `32000 n`
  together with block `n`'s. By induction on the number of points the one-word window holds the maximum of the
  entries in the rows seen so far (the word it held before the first point is never read: point 0 starts from the
  least word), and the last point adds one: `acc X 50` is the reference's reduction over both axes plus one.
-/
import proofs.«216085_g6047313953276_cont_9to1_m_1310_46_alg».proof.Proof.KernelIdeal.Spec
import Idealize.ShloMosaic.PureOps.Reduce
import Idealize.ShloMosaic.Lib.ValueIdx
import Idealize.ShloMosaic.Lib.Pipeline.Value

noncomputable section

namespace Cert.Proof.KernelIdeal

open Cert.KernelIdeal Cert.KernelIdeal.Gen
open Idealize.ShloMosaic

variable {F : FTy → Type} [FloatOps F]

theorem maxsi_self {w : Nat} (a : BitVec w) : IntOp.maxsi a a = a := by
  unfold IntOp.maxsi; split <;> rfl

instance maxsi_idem {w : Nat} : Std.IdempotentOp (IntOp.maxsi (w := w)) := ⟨maxsi_self⟩

section FoldIdem
variable {α β : Type} (op : β → β → β) [hc : Std.Commutative op] [ha : Std.Associative op]

theorem fold_union_of_idem [DecidableEq α] (b : β) (hb : op b b = b) (f : α → β) (A B : Finset α) (h : Disjoint A B) :
    (A ∪ B).fold op b f = op (A.fold op b f) (B.fold op b f) := by
  have e := Finset.fold_disjUnion (op := op) (f := f) (b₁ := b) (b₂ := b) h
  rw [hb, Finset.disjUnion_eq_union] at e
  exact e

end FoldIdem

theorem size_S1 : ∀ b : Fin S1.rank, S1.size b = 1 := by decide

/-- The block maximum the body computes is the fold of signed max from the least word over all entries of the block. -/
theorem blockMax_eq_fold (x : Vec F S32000x2 .i32) :
    blockMax (F := F) x = (Finset.univ : Finset S32000x2.Idx).fold IntOp.maxsi 2147483648#32 x := by
  unfold blockMax extractAt k1_pay1
  dsimp only
  unfold shapeCast
  refine (multiReductionI_eq_fold .maxsi _ _ _ _ _).trans ?_
  rw [Finset.filter_true_of_mem (fun i _ => funext fun b => Fin.ext (by
    have h1 := (reduces_S1x32000x2_S1.drop i b).isLt
    have h2 := ((Shape.reshapeEquiv shapeCasts_S1_S1x1x1 (fun a => ⟨![0, 0, 0] a, inpos_S1x1x1_p0_0_0 a⟩)) b).isLt
    have h3 := size_S1 b
    omega))]
  have e := Finset.fold_map (op := IntOp.maxsi) (b := 2147483648#32) (f := x)
    (g := (Shape.reshapeEquiv shapeCasts_S32000x2_S1x32000x2).toEmbedding) (s := Finset.univ)
  rw [Finset.map_univ_equiv] at e
  exact e.symm

/-- The window's index map at point `t`: block row `t`, block column 0. -/
theorem index1_0 : ∀ t : Fin cfg1.N, win1_0.index t 0 = t.val ∧ win1_0.index t 1 = 0 :=
  (by decide +kernel : ∀ t : Fin grid1.N, win1_0.index t 0 = t.val ∧ win1_0.index t 1 = 0)

/-- Entry `x` of block `t` is entry (32000 t + x₀, x₁) of the edge list. -/
theorem blk_apply (X : IVec S1600000x2 32) (t : Fin cfg1.N) (x : S32000x2.Idx) (k : S1600000x2.Idx)
    (hk0 : (k 0).val = 32000 * t.val + (x 0).val) (hk1 : (k 1).val = (x 1).val) :
    blk (F := F) X t x = X k := by
  unfold blk
  rw [View.read_apply]
  show X _ = X k
  congr 1
  funext a
  apply Fin.ext
  match a with
  | ⟨0, _⟩ => show win1_0.index t 0 * 32000 + 1 * (x 0).val = (k 0).val; rw [(index1_0 t).1, hk0]; omega
  | ⟨1, _⟩ => show win1_0.index t 1 * 2 + 1 * (x 1).val = (k 1).val; rw [(index1_0 t).2, hk1]; omega

open Idealize.ShloMosaic.ValueIdx

theorem N50 : cfg1.N = 50 := N_1

/-- The place in the edge list of entry `x` of block `t`. -/
def blkIdx (t : Fin cfg1.N) (x : S32000x2.Idx) : S1600000x2.Idx :=
  ix2 (n0 := 1600000) (n1 := 2) ⟨32000 * t.val + (x 0).val, by
    have h0 := idx2_lt0 x; have ht := t.isLt; have e := N50; omega⟩ ⟨(x 1).val, idx2_lt1 x⟩

theorem blk_eq (X : IVec S1600000x2 32) (t : Fin cfg1.N) : blk (F := F) X t = X ∘ blkIdx t :=
  funext fun x => blk_apply X t x (blkIdx t x) rfl rfl

/-- The entries in rows below `32000 n`. -/
def rowsBelow (n : ℕ) : Finset S1600000x2.Idx := Finset.univ.filter fun i => (i 0).val < 32000 * n
/-- The entries in the rows of block `t`. -/
def blockRows (t : ℕ) : Finset S1600000x2.Idx :=
  Finset.univ.filter fun i => 32000 * t ≤ (i 0).val ∧ (i 0).val < 32000 * (t + 1)

/-- Block `t`'s entries sit exactly in rows `32000 t … 32000 t + 31999`. -/
theorem image_blkIdx (t : Fin cfg1.N) : Finset.univ.image (blkIdx t) = blockRows t.val := by
  ext i
  simp only [Finset.mem_image, Finset.mem_univ, true_and, blockRows, Finset.mem_filter]
  constructor
  · rintro ⟨x, rfl⟩
    have h0 := idx2_lt0 x
    show 32000 * t.val ≤ 32000 * t.val + (x 0).val ∧ 32000 * t.val + (x 0).val < 32000 * (t.val + 1)
    omega
  · rintro ⟨h1, h2⟩
    refine ⟨ix2 (n0 := 32000) (n1 := 2) ⟨(i 0).val - 32000 * t.val, by omega⟩ ⟨(i 1).val, idx2_lt1 i⟩, ?_⟩
    funext a
    apply Fin.ext
    match a with
    | ⟨0, _⟩ => show 32000 * t.val + ((i 0).val - 32000 * t.val) = (i 0).val; omega
    | ⟨1, _⟩ => rfl

/-- The maximum of block `t` is the fold over the block's rows of the edge list. -/
theorem blockMax_blk (X : IVec S1600000x2 32) (t : Fin cfg1.N) :
    blockMax (F := F) (blk (F := F) X t) = (blockRows t.val).fold IntOp.maxsi 2147483648#32 X := by
  rw [blockMax_eq_fold, blk_eq, ← image_blkIdx, Finset.fold_image_idem]

theorem rowsBelow_zero : rowsBelow 0 = ∅ := by
  unfold rowsBelow
  exact Finset.filter_false_of_mem fun i _ => by omega

theorem rowsBelow_succ (n : ℕ) : rowsBelow (n + 1) = rowsBelow n ∪ blockRows n := by
  ext i
  simp only [rowsBelow, blockRows, Finset.mem_union, Finset.mem_filter, Finset.mem_univ, true_and]
  omega

theorem disjoint_rows (n : ℕ) : Disjoint (rowsBelow n) (blockRows n) :=
  Finset.disjoint_left.2 fun i hA hB => by
    simp only [rowsBelow, blockRows, Finset.mem_filter, Finset.mem_univ, true_and] at hA hB
    omega

theorem rowsBelow_all : rowsBelow 50 = Finset.univ := by
  unfold rowsBelow
  exact Finset.filter_true_of_mem fun i _ => by have := idx2_lt0 i; omega

/-- At which points the body's two comparisons of the grid coordinate hold. -/
theorem cmp1 : ∀ t : Fin cfg1.N,
    (Scalar.cmpi .eq (BitVec.ofNat 32 (grid1.coords t 0).val) 0#32 = 1 ↔ t.val = 0)
    ∧ (Scalar.cmpi .eq (BitVec.ofNat 32 (grid1.coords t 0).val) 49#32 = 1 ↔ t.val = 49) :=
  (by decide +kernel : ∀ t : Fin grid1.N,
    (Scalar.cmpi .eq (BitVec.ofNat 32 (grid1.coords t 0).val) 0#32 = 1 ↔ t.val = 0)
    ∧ (Scalar.cmpi .eq (BitVec.ofNat 32 (grid1.coords t 0).val) 49#32 = 1 ↔ t.val = 49))

/-- The stored word at point `t`, by cases on the point. -/
theorem stepWord_eq (t : Fin cfg1.N) (prev : BitVec 32) (x : Vec F S32000x2 .i32) :
    stepWord (F := F) (grid1.coords t) prev x =
      if t.val = 49 then IntOp.addi (IntOp.maxsi (if t.val = 0 then 2147483648#32 else prev) (blockMax (F := F) x)) 1#32
      else IntOp.maxsi (if t.val = 0 then 2147483648#32 else prev) (blockMax (F := F) x) := by
  unfold stepWord Scalar.select
  dsimp only
  simp only [(cmp1 t).1, (cmp1 t).2]
  rfl

/-- The running maximum over the rows seen so far, joined with block `n`, is the running maximum over the rows
    through block `n`. -/
theorem fold_rows_succ (X : IVec S1600000x2 32) (n : ℕ) :
    IntOp.maxsi ((rowsBelow n).fold IntOp.maxsi 2147483648#32 X) ((blockRows n).fold IntOp.maxsi 2147483648#32 X)
      = (rowsBelow (n + 1)).fold IntOp.maxsi 2147483648#32 X := by
  rw [rowsBelow_succ, fold_union_of_idem IntOp.maxsi _ (maxsi_self _) X _ _ (disjoint_rows n)]

/-- What point `n` starts from (the least word at point 0, the kept word after) is the maximum, from the least word,
    of the entries in the rows before block `n`. -/
theorem start_eq (X : IVec S1600000x2 32) : ∀ n : ℕ, n < 50 →
    (if n = 0 then 2147483648#32 else acc (F := F) X n) = (rowsBelow n).fold IntOp.maxsi 2147483648#32 X
  | 0, _ => by rw [if_pos rfl, rowsBelow_zero, Finset.fold_empty]
  | k + 1, hk => by
    have hk' : k < cfg1.N := by have := N50; omega
    rw [if_neg (Nat.succ_ne_zero k)]
    show (if h : k < cfg1.N then stepWord (F := F) (grid1.coords ⟨k, h⟩) (acc (F := F) X k) (blk (F := F) X ⟨k, h⟩)
      else acc (F := F) X k) = _
    rw [dif_pos hk', stepWord_eq, if_neg (show ¬ k = 49 by omega)]
    show IntOp.maxsi (if k = 0 then 2147483648#32 else acc (F := F) X k) _ = _
    rw [start_eq X k (by omega), blockMax_blk]
    exact fold_rows_succ X k

/-- After all fifty points the window holds the maximum, from the least word, of every entry, plus one. -/
theorem acc_fifty (X : IVec S1600000x2 32) :
    acc (F := F) X 50 = IntOp.addi ((Finset.univ : Finset S1600000x2.Idx).fold IntOp.maxsi 2147483648#32 X) 1#32 := by
  have h49 : 49 < cfg1.N := by have := N50; omega
  show (if h : 49 < cfg1.N then stepWord (F := F) (grid1.coords ⟨49, h⟩) (acc (F := F) X 49) (blk (F := F) X ⟨49, h⟩)
    else acc (F := F) X 49) = _
  rw [dif_pos h49, stepWord_eq, if_pos rfl]
  show IntOp.addi (IntOp.maxsi (if 49 = 0 then 2147483648#32 else acc (F := F) X 49) _) 1#32 = _
  rw [start_eq X 49 (by omega), blockMax_blk]
  show IntOp.addi (IntOp.maxsi _ ((blockRows 49).fold IntOp.maxsi 2147483648#32 X)) 1#32 = _
  rw [fold_rows_succ X 49, rowsBelow_all]

/-- After all fifty points the window holds what the one-operand reduction by signed maximum over both axes, from the
    least word, gives at its one index, plus one. -/
theorem acc_all (X : IVec S1600000x2 32) (hr : S1600000x2.ReducesTo [0, 1] S_) (h0 : 0 < S_.numel) (i : S_.Idx) :
    acc (F := F) X 50 = IntOp.addi (Host.reduce IntOp.maxsi X (constantI S_ 32 2147483648#32) hr h0 i) 1#32 := by
  rw [acc_fifty, Host.reduce_eq_fold,
    Finset.filter_true_of_mem (fun k _ => funext fun b => b.elim0)]
  simp only [constantI]

end Cert.Proof.KernelIdeal

end
-- ==== Proof.Kernel.Common.lean ====
/-
  What the parts of the proof about the word-level kernel program share.

  The program is a SparseCore call (thirty-two vector subcores each fill a 10000-word scratch with ones and copy it
  five times into their own 50000 words of the result `vals`), then a TensorCore pipeline over fifty blocks of the
  edge list that keeps a running signed maximum in a one-word SMEM window and adds one at the last block, then a
  reshape of that word. Here: the program as the SparseCore launch theorem sees it, the resource algebra (the
  handshakes' rounds beside the pipeline's staging cells' rounds beside the transfers' counters), and the places of
  the three arrays.
-/
import proofs.«216085_g6047313953276_cont_9to1_m_1310_46_alg».proof.Proof.Gen.Kernel
import proofs.«216085_g6047313953276_cont_9to1_m_1310_46_alg».proof.Proof.Gen.Kernel.Skeleton
import proofs.«216085_g6047313953276_cont_9to1_m_1310_46_alg».proof.Proof.Gen.Kernel.Launch
import proofs.«216085_g6047313953276_cont_9to1_m_1310_46_alg».proof.Proof.Gen.Kernel.Points
import Idealize.ShloMosaic.Lib.SparseCore.Launch
import Idealize.ShloMosaic.Lib.StableHlo.Run
import Idealize.ShloMosaic.Lib.Tactic
import Idealize.ShloMosaic.Lib.Batch
import Idealize.ShloMosaic.Lib.Pipeline.Kit
import Idealize.ShloMosaic.Lib.Pipeline.Regions

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The kernels' labels under the one TensorCore pipeline. -/
abbrev ΛP : Labels := Pipeline.Sig Λ₀ (Fin 1) fun p => (pcfgs (F := F) p).Adm
/-- The SparseCore call. -/
abbrev K : SparseCore.Cfg τ sig (ΛP (F := F)) 1 := sc (F := F)
theorem nCore_zero : (K (F := F)).nCore 0 = 2 := rfl
theorem nSub_zero : (K (F := F)).nSub 0 = 16 := rfl
/-- The body table under the pipeline. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipeline's staging cells' rounds. -/
abbrev UP : Type := URounds (GSem nD τ sig) Unit
/-- Handshakes, staging cells, and the counters the subcores' copies take their tokens from. -/
abbrev UU : Type := UH × (UP × Counters)

/-- The handshakes' component. -/
abbrev EH : Emb UH (MT nD τ sig (HIx 1) (Elt F) ℕ UU ℕ) := embL
/-- The staging cells' component. -/
def EP : Emb UP (MT nD τ sig (HIx 1) (Elt F) ℕ UU ℕ) :=
  (Emb.inl : Emb UP (UP × Counters)).trans (embR : Emb (UP × Counters) (MT nD τ sig (HIx 1) (Elt F) ℕ UU ℕ))

instance EP_landsIn : (EP : Emb UP (MT nD τ sig (HIx 1) (Elt F) ℕ UU ℕ)).LandsIn (upEmb : UEmb _ (MT nD τ sig (HIx 1) (Elt F) ℕ UU ℕ)) := by
  unfold EP embR; infer_instance

/-! ## The arrays -/

/-- The edge list (the argument), `vals` (the ones), the one-word maximum and its reshape, on device `d`. -/
abbrev aLoc (d : Dev nD) : Loc nD τ sig := (SparseCore.T d).loc main_arg0
abbrev vLoc (d : Dev nD) : Loc nD τ sig := (SparseCore.T d).loc main_v0
abbrev xLoc (d : Dev nD) : Loc nD τ sig := (SparseCore.T d).loc main_v1
abbrev nLoc (d : Dev nD) : Loc nD τ sig := (SparseCore.T d).loc main_v2

/-- The prefetched tables' admissible contents: there is no table. -/
abbrev adm : (p : Fin 1) → (pcfgs (F := F) p).Adm := fun p => (cfgs p).toPCfg_adm

end Cert.Proof.Kernel

end
-- ==== Proof.Kernel.Chunks.lean ====
/-
  The 160 pieces of `vals`: vector subcore `s` of SparseCore `c` writes the five runs of 10000 words that start at
  100000 s + 50000 c + 10000 r, r = 0 … 4. They are pairwise disjoint and cover the 1600000 words, so the array held
  whole is the pieces held one by one.
-/
import proofs.«216085_g6047313953276_cont_9to1_m_1310_46_alg».proof.Proof.Kernel.Common

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- `vals` as a vector subcore names it, and a subcore's scratch. -/
abbrev vV : Memref sig .scVector .hbm S1600000 .i32 := Memref.whole main_v0_scv
abbrev sS : Memref sig .scVector .vmem S10000 .i32 := Memref.whole cc0_scratch0

/-- The grid point of SparseCore `c`, subcore `s`. -/
def mkL (c : Fin 2) (s : Fin 16) : grid0.Coords :=
  fun | 0 => c | 1 => s | ⟨_ + 2, h⟩ => absurd h (Nat.not_lt.2 (Nat.le_add_left _ _))

theorem mkL_zero (c : Fin 2) (s : Fin 16) : ((mkL c s) 0).val = c.val := rfl
theorem mkL_one (c : Fin 2) (s : Fin 16) : ((mkL c s) 1).val = s.val := rfl

/-- Piece `r` of the subcore at grid point `L`, as the kernel slices it. -/
abbrev dstR (L : grid0.Coords) (r : Fin 5) : Memref sig .scVector .hbm S10000 .i32 :=
  (vV).slice (Rect.unit (s := S1600000) (k0_off2 L (BitVec.ofNat 32 (10000 * r.val))) S10000.size (k0_off2_inb L r)) (fun _ => rfl)

/-- Its words. -/
abbrev chunk (L : grid0.Coords) (r : Fin 5) : Finset S1600000.Idx := (dstR L r).view.set

/-- Where it starts. -/
def base (L : grid0.Coords) (r : Fin 5) : ℕ := 100000 * (L 1).val + 50000 * (L 0).val + 10000 * r.val

theorem mem_chunk (L : grid0.Coords) (r : Fin 5) (j : S1600000.Idx) :
    j ∈ chunk L r ↔ base L r ≤ (j 0).val ∧ (j 0).val < base L r + 10000 := by
  show j ∈ ((View.whole main_v0_scv).slice (Rect.unit (s := S1600000) (k0_off2 L (BitVec.ofNat 32 (10000 * r.val))) S10000.size (k0_off2_inb L r))).set ↔ _
  rw [View.set_slice_whole, Rect.mem_set_unit, k0_off2_eq L r]
  constructor
  · intro h; exact h 0
  · intro h a
    match a with
    | ⟨0, _⟩ => exact h

/-- The pieces, indexed by SparseCore, subcore and run. -/
abbrev Piece : Type := Fin 2 × Fin 16 × Fin 5
abbrev pieceSet (t : Piece) : Finset S1600000.Idx := chunk (mkL t.1 t.2.1) t.2.2

theorem pieces_disjoint : ∀ t ∈ (Finset.univ : Finset Piece), ∀ t' ∈ (Finset.univ : Finset Piece), t ≠ t' → Disjoint (pieceSet t) (pieceSet t') := by
  rintro ⟨c, s, r⟩ - ⟨c', s', r'⟩ - hne
  refine Finset.disjoint_left.mpr fun j h1 h2 => hne ?_
  dsimp only [pieceSet] at h1 h2
  rw [mem_chunk] at h1 h2
  unfold base at h1 h2
  rw [mkL_zero, mkL_one] at h1 h2
  have hc := c.isLt; have hc' := c'.isLt; have hs := s.isLt; have hs' := s'.isLt; have hr := r.isLt; have hr' := r'.isLt
  have e1 : c.val = c'.val := by omega
  have e2 : s.val = s'.val := by omega
  have e3 : r.val = r'.val := by omega
  exact Prod.ext (Fin.ext e1) (Prod.ext (Fin.ext e2) (Fin.ext e3))

theorem pieces_cover : (Finset.univ : Finset Piece).biUnion pieceSet = Finset.univ := by
  refine Finset.eq_univ_of_forall fun j => ?_
  have hj : (j 0).val < 1600000 := (j 0).isLt
  refine Finset.mem_biUnion.mpr ⟨(⟨((j 0).val % 100000) / 50000, by omega⟩, ⟨(j 0).val / 100000, by omega⟩, ⟨((j 0).val % 50000) / 10000, by omega⟩), Finset.mem_univ _, ?_⟩
  dsimp only [pieceSet]
  rw [mem_chunk]; unfold base; rw [mkL_zero, mkL_one]
  dsimp only
  omega

/-- `vals` held whole is its pieces held one by one. -/
theorem pts_pieces (d : Dev nD) (f : Buf (Elt F) (vLoc d)) :
    (vLoc d ↦{fullShare} f : sProp 𝕄) = bigSep Finset.univ fun t : Piece => vLoc d ↦[pieceSet t]{fullShare} f := by
  rw [← pointsTo_biUnion Finset.univ (ℓ := vLoc d) pieceSet pieces_disjoint, pieces_cover]; try rfl

end Cert.Proof.Kernel

end
-- ==== Proof.Kernel.Tile.lean ====
/-
  One vector subcore's task. It stores sixteen ones at a time into its 10000-word scratch, 625 times (after trip k the
  first 16 k words are ones), then starts five copies of the scratch, all on one semaphore, into its five runs of
  `vals`, and waits five times for one run's amount. Nothing touches the scratch or the runs between the first start
  and the last wait, so when the last wait returns every run holds what the scratch held: ones.
-/
import proofs.«216085_g6047313953276_cont_9to1_m_1310_46_alg».proof.Proof.Kernel.Chunks
import Idealize.ShloMosaic.Lib.Pipeline.Value

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The arithmetic of the fill -/

theorem trips_eq : k0_t1_loop.trips = 625 := by decide +kernel

omit [FloatOps F] in
theorem pay1_apply (x : S16.Idx) : (k0_pay1 : IVec S16 32) x = 1#32 := by
  unfold k0_pay1; rw [shapeCast_self]; rfl

theorem off1_zero (k : Fin k0_t1_loop.trips) : k0_off1 k 0 = 16 * k.val := by rw [k0_off1_eq]; rfl

/-- Storing sixteen ones at words 16 k … 16 k + 15 over contents that are ones below 16 k leaves ones below 16 (k + 1). -/
theorem fill_step (k : Fin k0_t1_loop.trips) (f : (sS : Memref sig .scVector .vmem S10000 .i32).view.ty.Contents (Elt F))
    (hf : ∀ j : S10000.Idx, (j 0).val < 16 * k.val → f j = 1#32) :
    ∀ j : S10000.Idx, (j 0).val < 16 * (k.val + 1) →
      (sS : Memref sig .scVector .vmem S10000 .i32).view.writes (Elt F) f [⟨Rect.unit (s := S10000) (k0_off1 k) S16.size (k0_off1_inb k), k0_pay1⟩] j = 1#32 := by
  intro j hj
  by_cases h : 16 * k.val ≤ (j 0).val
  · have hx : (j 0).val - 16 * k.val < 16 := by omega
    let x : S16.Idx := fun | ⟨0, _⟩ => ⟨(j 0).val - 16 * k.val, hx⟩
    have hemb : (Rect.unit (s := S10000) (k0_off1 k) S16.size (k0_off1_inb k)).emb x = j := by
      funext a
      match a with
      | ⟨0, _⟩ =>
        apply Fin.ext
        show k0_off1 k 0 + 1 * ((j 0).val - 16 * k.val) = (j 0).val
        rw [off1_zero]; omega
    have hr := View.read_writes_cons_emb (v := (sS : Memref sig .scVector .vmem S10000 .i32).view) (Val := Elt F) (f := f)
      (Rect.unit (s := S10000) (k0_off1 k) S16.size (k0_off1_inb k)) k0_pay1 [] x
    rw [hemb] at hr
    exact hr.trans (pay1_apply x)
  · have hlt : (j 0).val < 16 * k.val := by omega
    rw [View.writes_singleton, View.write_of_not_mem]
    · exact hf j hlt
    · show j ∉ ((View.whole cc0_scratch0).slice (Rect.unit (s := S10000) (k0_off1 k) S16.size (k0_off1_inb k))).set
      rw [View.set_slice_whole, Rect.mem_set_unit]
      intro hm
      have := (hm 0).1
      rw [off1_zero] at this
      omega

/-- A run of `vals` overwritten whole by a vector of ones reads as ones through the run's own view; -/
theorem landed_read (d : Dev nD) (L : grid0.Coords) (r : Fin 5) (f0 : Buf (Elt F) (vLoc d)) (w : S10000.Idx → BitVec 32) (hw : ∀ x, w x = 1#32)
    (x : S10000.Idx) : (dstR L r).view.read (Elt F) ((dstR L r).view.writes (Elt F) f0 [⟨Rect.whole S10000, w⟩]) x = 1#32 := by
  have hr := View.read_writes_cons_emb (v := (dstR L r).view) (Val := Elt F) (f := f0) (Rect.whole S10000) w [] x
  rw [Rect.emb_whole_apply] at hr
  exact hr.trans (hw x)

omit [FloatOps F] in
/-- reading through the run's view is reading `vals` at the run's word; -/
theorem read_emb (d : Dev nD) (L : grid0.Coords) (r : Fin 5) (g : Buf (Elt F) (vLoc d)) (x : S10000.Idx) :
    (dstR L r).view.read (Elt F) g x = g ((dstR L r).view.emb x) := rfl

theorem landed_at (d : Dev nD) (L : grid0.Coords) (r : Fin 5) (f0 : Buf (Elt F) (vLoc d)) (w : S10000.Idx → BitVec 32) (hw : ∀ x, w x = 1#32)
    (x : S10000.Idx) : (dstR L r).view.writes (Elt F) f0 [⟨Rect.whole S10000, w⟩] ((dstR L r).view.emb x) = 1#32 :=
  (read_emb d L r _ x).symm.trans (landed_read d L r f0 w hw x)

/-- word `i` of `vals` inside the run is the run's word `i - base`; -/
theorem emb_of (L : grid0.Coords) (r : Fin 5) (i : S1600000.Idx) (hi : base L r ≤ (i 0).val ∧ (i 0).val < base L r + 10000) :
    ∃ x : S10000.Idx, (dstR L r).view.emb x = i := by
  have hx : (i 0).val - base L r < 10000 := by omega
  refine ⟨fun | ⟨0, _⟩ => ⟨(i 0).val - base L r, hx⟩, ?_⟩
  funext a
  match a with
  | ⟨0, _⟩ =>
    apply Fin.ext
    show k0_off2 L (BitVec.ofNat 32 (10000 * r.val)) 0 + 1 * ((i 0).val - base L r) = (i 0).val
    rw [k0_off2_eq L r]
    show base L r + 1 * ((i 0).val - base L r) = (i 0).val
    omega

/-- so the run holds ones at every one of its words. -/
theorem landed_ones (d : Dev nD) (L : grid0.Coords) (r : Fin 5) (f0 : Buf (Elt F) (vLoc d)) (w : S10000.Idx → BitVec 32) (hw : ∀ x, w x = 1#32) :
    ∀ i ∈ chunk L r, (dstR L r).view.writes (Elt F) f0 [⟨Rect.whole S10000, w⟩] i = 1#32 := by
  intro i hi
  rw [mem_chunk] at hi
  obtain ⟨x, rfl⟩ := emb_of L r i hi
  exact landed_at d L r f0 w hw x

/-! ## The task -/

section Tile

variable (d : Dev nD) (L : grid0.Coords)

abbrev cV (L : grid0.Coords) : Fin τ.nSC := (L 0).castLE hcore0
abbrev jV (L : grid0.Coords) : Fin τ.nSub := (L 1).castLE hsub0

/-- The subcore's one DMA semaphore. -/
abbrev cell (d : Dev nD) (L : grid0.Coords) : GSem nD τ sig := (V d (cV L) (jV L), .dma cc0_scratch1.sem)

/-- `vals` all ones. -/
def ones (d : Dev nD) : Buf (Elt F) (vLoc d) := fun _ => 1#32

/-- The subcore's five runs of `vals`, at contents `f`. -/
def runs (d : Dev nD) (L : grid0.Coords) (f : Buf (Elt F) (vLoc d)) : sProp 𝕄 :=
  bigSep Finset.univ fun r : Fin 5 => vLoc d ↦[chunk L r]{fullShare} f

omit [FloatOps F] in
theorem runs_eq (f : Buf (Elt F) (vLoc d)) :
    runs d L f = iprop((vLoc d ↦[chunk L 0]{fullShare} f) ∗ (vLoc d ↦[chunk L 1]{fullShare} f) ∗ (vLoc d ↦[chunk L 2]{fullShare} f)
      ∗ (vLoc d ↦[chunk L 3]{fullShare} f) ∗ (vLoc d ↦[chunk L 4]{fullShare} f)) :=
  bigSep_univ_eq_bigSepL [(0 : Fin 5), 1, 2, 3, 4] (by decide) (by decide) _

omit [FloatOps F] in
theorem ownSems0_V :
    (ownSems0 (V d (cV L) (jV L)) : sProp 𝕄)
      = iprop(semVal (cell d L) 0 ∗ bigSep ((ownCells (V d (cV L) (jV L))).erase (cell d L)) fun g => semVal g 0) := by
  unfold SparseCore.Cfg.ownSems0
  exact SparseCore.bigSep_erase' ((mem_ownCells (g := cell d L)).mpr ⟨rfl, by
      show (SemLoc.dma cc0_scratch1.sem : SemLoc sig).isScoped .scVector = true; decide⟩)

omit [FloatOps F] in
theorem ownBufs_V :
    (ownBufs (V d (cV L) (jV L)) : sProp 𝕄)
      = iprop((∃ f, (V d (cV L) (jV L)).loc cc0_scratch0 ↦{fullShare} f)
          ∗ bigSep ((ownRefs (τ := τ) (.scVector (cV L) (jV L))).erase ((Proc.scVector (cV L) (jV L)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector (cV L) (jV L))
    (b := (Proc.scVector (cV L) (jV L)).devRef cc0_scratch0) rfl)

omit [FloatOps F] in
theorem pts_sS (f : Buf (Elt F) ((V d (cV L) (jV L)).loc cc0_scratch0)) :
    ((sS : Memref sig .scVector .vmem S10000 .i32).view.loc (V d (cV L) (jV L)) ↦{fullShare} f : sProp 𝕄) = (V d (cV L) (jV L)).loc cc0_scratch0 ↦{fullShare} f := rfl

omit [FloatOps F] in
theorem pts_dst (r : Fin 5) (f : Buf (Elt F) (vLoc d)) :
    ((dstR L r).view.loc (V d (cV L) (jV L)) ↦[(dstR L r).view.set]{fullShare} f : sProp 𝕄) = vLoc d ↦[chunk L r]{fullShare} f := rfl

/-- The fill loop's invariant: after `k` trips the scratch's first 16 k words are ones. -/
def inv (k : Nat) (_ : PUnit) : sProp 𝕄 :=
  iprop(∃ f, ⌜∀ j : S10000.Idx, (j 0).val < 16 * k → f j = 1#32⌝ ∗ ((sS : Memref sig .scVector .vmem S10000 .i32).view.loc (V d (cV L) (jV L)) ↦{fullShare} f))

set_option maxRecDepth 100000 in
set_option Elab.async false in
/-- The task on vector subcore `(L 0, L 1)`: the fill, five copies, five waits; its five runs come back as ones. -/
theorem tile_body (hF : (K (F := F)).Facts) (O : CellTallies nD τ sig (HIx 1)) (W : Waits sig (HIx 1)) (hO : ∀ g, O g none = 0)
    (f0 : Buf (Elt F) (vLoc d)) :
    iprop(levAts (K (F := F)).L (K (F := F)).lev ∗ emp ∗ runs d L f0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_ones L vV (Memref.isWhole_whole _) sS (Memref.isWhole_whole _) cc0_scratch1)
          fun _ => iprop(runs d L (ones d) ∗ scopedBufs (V d (cV L) (jV L)) ∗ scopedSems0 (V d (cV L) (jV L))
            ∗ ∃ W', ⌜∀ p ∈ W', p ∈ W ∨ p.2 = none⌝ ∗ owes (V d (cV L) (jV L)) O W') := by
  have _plan : Transfers.BatchOf (V d (cV L) (jV L)) (SemLoc.dma cc0_scratch1.sem) 5 (windows := true) := trivial
  simp only [cc0_sc_ones_eq_skeleton]; unfold cc0_sc_ones_skel
  rw [(K (F := F)).scopedBufs_V hF d (cV L) (jV L), SparseCore.Cfg.scopedSems0_V (Val := Elt F) d (cV L) (jV L), ownSems0_V, ownBufs_V, runs_eq, runs_eq]
  iintro ⟨#Hlv, -, ⟨H0, H1, H2, H3, H4⟩, ⟨⟨%fs, Hs⟩, Hbufs⟩, ⟨Hsem, Hsems⟩, HO⟩
  ihave Hmw := ((K (F := F)).mayWaits_none (thr := V d (cV L) (jV L)) hO) $$ Hlv
  ihave H0 := (Entails.of_eq (pts_dst (F := F) d L 0 f0).symm) $$ H0
  ihave H1 := (Entails.of_eq (pts_dst (F := F) d L 1 f0).symm) $$ H1
  ihave H2 := (Entails.of_eq (pts_dst (F := F) d L 2 f0).symm) $$ H2
  ihave H3 := (Entails.of_eq (pts_dst (F := F) d L 3 f0).symm) $$ H3
  ihave H4 := (Entails.of_eq (pts_dst (F := F) d L 4 f0).symm) $$ H4
  sl_exec
  ihave Hs' := (Entails.of_eq (pts_sS (F := F) d L fs).symm) $$ Hs
  sl_for (inv (F := F) d L) $$ [Hs']
  case region =>
    intro k _
    unfold inv
    iintro ⟨%f, %hf, Hs⟩
    sl_exec
    sl_step
    iexists _; isplitr
    · ipureintro; exact fill_step k f hf
    · iexact Hs
  · unfold inv
    iexists fs; isplitr
    · ipureintro; intro j hj; omega
    · iexact Hs'
  iintro %_ HI
  unfold inv
  icases HI with ⟨%f, %hf, Hs⟩
  have hall : ∀ j : S10000.Idx, f j = 1#32 := fun j => hf j (by
    show (j 0).val < 16 * k0_t1_loop.trips
    rw [trips_eq]; have hj : (j 0).val < 10000 := (j 0).isLt; omega)
  sl_exec
  have hw : ∀ x, tile_body.sl.dma0 d L f x = 1#32 := fun x => hall x
  sl_step
  isplitl [H0 H1 H2 H3 H4]
  · isplitl [H0]
    · iapply (Entails.of_eq ((pts_dst (F := F) d L 0 _).trans (pointsTo_congr (landed_ones d L 0 f0 _ hw)))); iexact H0
    isplitl [H1]
    · iapply (Entails.of_eq ((pts_dst (F := F) d L 1 _).trans (pointsTo_congr (landed_ones d L 1 f0 _ hw)))); iexact H1
    isplitl [H2]
    · iapply (Entails.of_eq ((pts_dst (F := F) d L 2 _).trans (pointsTo_congr (landed_ones d L 2 f0 _ hw)))); iexact H2
    isplitl [H3]
    · iapply (Entails.of_eq ((pts_dst (F := F) d L 3 _).trans (pointsTo_congr (landed_ones d L 3 f0 _ hw)))); iexact H3
    · iapply (Entails.of_eq ((pts_dst (F := F) d L 4 _).trans (pointsTo_congr (landed_ones d L 4 f0 _ hw)))); iexact H4
  isplitl [Hs Hbufs]
  · isplitl [Hs]
    · iexists _; iapply (Entails.of_eq (pts_sS (F := F) d L _)); iexact Hs
    · iexact Hbufs
  isplitl [Hsem Hsems]
  · isplitl [Hsem]
    · iexact Hsem
    · iexact Hsems
  iexists _; isplitr; swap; (· iexact HO)
  · ipureintro
    intro p hp
    simp only [Finset.mem_insert] at hp
    rcases hp with rfl | rfl | rfl | rfl | rfl | hp
    · exact .inr rfl
    · exact .inr rfl
    · exact .inr rfl
    · exact .inr rfl
    · exact .inr rfl
    · exact .inl hp

end Tile

end Cert.Proof.Kernel

end
-- ==== Proof.Kernel.Spec.lean ====
/-
  The numbers the TensorCore pipeline computes, as pure functions of the edge list.

  Point `t` of the grid sees block `t` of the edge list (32000 rows of 2), takes its signed maximum, and stores into
  the one-word window the maximum of that and the word kept from the point before (the least signed word at point 0),
  plus one at the last point. `acc X n` is the word after the first `n` points; after all fifty it is the maximum
  of the whole list plus one.
-/
import proofs.«216085_g6047313953276_cont_9to1_m_1310_46_alg».proof.Proof.Gen.Kernel
import proofs.«216085_g6047313953276_cont_9to1_m_1310_46_alg».proof.Proof.Gen.Kernel.Skeleton
import proofs.«216085_g6047313953276_cont_9to1_m_1310_46_alg».proof.Proof.Gen.Kernel.Launch
import proofs.«216085_g6047313953276_cont_9to1_m_1310_46_alg».proof.Proof.Gen.Kernel.Points

noncomputable section

namespace Cert.Proof.Kernel

open Cert.Kernel Cert.Kernel.Gen
open Idealize.ShloMosaic

variable {F : FTy → Type} [FloatOps F]

/-- The signed maximum of one block, as the body computes it from the block it loaded. -/
def blockMax (x : Vec F S32000x2 .i32) : BitVec 32 :=
  extractAt ![0, 0, 0] (k1_pay1 (F := F) x) inpos_S1x1x1_p0_0_0

/-- The word the body stores at grid coordinates `i`, from the word `prev` it loaded and the block `x`. -/
def stepWord (i : grid1.Coords) (prev : BitVec 32) (x : Vec F S32000x2 .i32) : BitVec 32 :=
  let a : BitVec 32 := BitVec.ofNat 32 (i 0).val
  let v8 : BitVec 32 := Scalar.maxsi (Scalar.select (Scalar.cmpi .eq a 0#32) 2147483648#32 prev) (blockMax (F := F) x)
  Scalar.select (Scalar.cmpi .eq a 49#32) (Scalar.addi v8 1#32) v8

/-- Block `t` of the edge list `X`, as the pipeline's first window reads it. -/
def blk (X : IVec S1600000x2 32) (t : Fin cfg1.N) :
    Vec F S32000x2 .i32 :=
  ((cfg1.win 0).blk t).view.read (Elt F) X

/-- The one-word window after the first `n` points (what it holds before the first is never read). -/
def acc (X : IVec S1600000x2 32) : ℕ → BitVec 32
  | 0 => 0#32
  | n + 1 => if h : n < cfg1.N then stepWord (F := F) (grid1.coords ⟨n, h⟩) (acc X n) (blk (F := F) X ⟨n, h⟩) else acc X n

end Cert.Proof.Kernel

end
-- ==== Proof.Kernel.RegionBody.lean ====
/-
  The TensorCore pipeline region of the program: the body's run and the body obligation.

  The pipeline walks fifty grid points. Window 0 is block `t` of the edge list (32000 rows of 2), fetched at every point,
  its blocks tiling the array, so the body finds block `t` in the current staging buffer. Window 1 is the one-word result,
  never fetched and written back at the last point only, so the body finds anything at the first point and at a later
  point the word it left at the point before. The body loads the block, reads the word, and stores the step of the two
  (`stepWord`): the maximum of the block's signed maximum and the word found — the least signed word in place of the word
  found at the first point, which therefore does not matter —, plus one at the last point. The word after `t + 1` points
  is `acc X (t + 1)`, by `acc`'s defining equation.
-/
import proofs.«216085_g6047313953276_cont_9to1_m_1310_46_alg».proof.Proof.Kernel.Common
import proofs.«216085_g6047313953276_cont_9to1_m_1310_46_alg».proof.Proof.Kernel.Spec
import Idealize.ShloMosaic.Lib.Pipeline.Regions
import Idealize.ShloMosaic.Lib.Pipeline.Kit
import Idealize.ShloMosaic.Lib.Pipeline.Frame
import Idealize.ShloMosaic.Lib.Pipeline.FrameBody
import Idealize.ShloMosaic.Lib.Pipeline.Value
import Idealize.ShloMosaic.Lib.Tactic

noncomputable section

namespace Cert.Proof.Kernel

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The numbers -/

/-- The one index of the one-word window. -/
abbrev i00 : S1x1.Idx := Shape.Idx.first (s := S1x1) (numel1_S1x1.symm ▸ Nat.one_pos)

/-- At the first grid coordinate the stored word does not depend on the word found. -/
theorem stepWord_zero (i : grid1.Coords) (h : (i 0).val = 0) (p p' : BitVec 32) (x : Vec F S32000x2 .i32) :
    stepWord (F := F) i p x = stepWord (F := F) i p' x := by
  unfold stepWord
  rw [h]
  rfl

/-- The window after one more point: the step from the word before it and the point's block. -/
theorem acc_succ (X : IVec S1600000x2 32) (t : Fin cfg1.N) :
    acc (F := F) X (t.val + 1) = stepWord (F := F) (grid1.coords t) (acc (F := F) X t.val) (blk (F := F) X t) := by
  show (if h : t.val < cfg1.N then stepWord (F := F) (grid1.coords ⟨t.val, h⟩) (acc (F := F) X t.val) (blk (F := F) X ⟨t.val, h⟩) else acc (F := F) X t.val) = _
  rw [dif_pos t.isLt]

/-- A point's first coordinate is the point. -/
theorem coords_val : ∀ t : Fin cfg1.N, ((grid1.coords t) 0).val = t.val :=
  (by decide +kernel : ∀ t : Fin grid1.N, ((grid1.coords t) 0).val = t.val)

/-! ## The body's run, on any whole staging memrefs -/

theorem zeros2 : (![0, 0] : Fin 2 → Nat) = fun _ => 0 := by funext a; fin_cases a <;> rfl

/-- From the block's buffer at `x0` and the word's buffer at `d1`, the body runs to its return leaving the block as it
    was and the word at the step from the word found and the block. -/
theorem bodyRun (c : Dev nD) (i : grid1.Coords) (arg1 : Memref sig .tc .vmem S32000x2 .i32) (harg1 : arg1.IsWhole)
    (arg2 : Memref sig .tc .smem S1x1 .i32) (harg2 : arg2.IsWhole) (x0 : Vec F S32000x2 .i32) (d1 : Vec F S1x1 .i32)
    (Q : PUnit → sProp 𝕄) :
    iprop(owns (c : Thread nD τ) arg1 fullShare x0 ∗ owns (c : Thread nD τ) arg2 fullShare d1
        ∗ (iprop(owns (c : Thread nD τ) arg1 fullShare x0
            ∗ owns (c : Thread nD τ) arg2 fullShare (fun _ => stepWord (F := F) i (d1 i00) x0)) -∗ Q ⟨⟩))
      ⊢ wp frame (wpE (defs₀ (F := F)) 𝒱₀ c none) Set.univ (cc1__max_body i arg1 harg1 arg2 harg2) Q := by
  simp only [cc1__max_body_eq_skeleton]; unfold cc1__max_body_skel
  unfold owns
  iintro ⟨⟨%f0, %hf0, H0⟩, ⟨%f1, %hf1, H1⟩, Hk⟩
  obtain rfl := harg1.eq_unread hf0
  obtain rfl := harg2.eq_unread hf1
  sl_exec
  sl_step
  iapply Hk
  isplitl [H0]
  · iexists _; isplitr; · ipureintro; exact hf0
    iexact H0
  iexists _; isplitr; swap; · iexact H1
  ipureintro
  sl_unfold_run_names
  rw [View.read_writes_eq_canon _ _ _ (fun y => ⟨_, List.mem_singleton_self _, View.mem_set_unit_zero zeros2 inb_S1x1_S1x1_0_0 y⟩),
    View.canon_unit_zero zeros2]
  funext _
  rw [View.readAt_eq_ld, View.readAt_eq_ld, hf0, hf1, View.ld_unit_zero zeros2, View.ld_unit_zero zeros2]
  rfl

/-! ## The pipeline's proof data -/

/-- The pipeline's proof data on core `c`: the edge list and the one-word result at their entry contents; after the body
    at point `t` the block's buffer as fetched and the word's buffer at the running word after `t + 1` points; the
    invariant is the scoped rest (no scratch, no semaphore of the body's own); nothing owed; the recorded waits below
    level 8. -/
def dats (_ : Fin 1) (c : Dev nD) : Pipeline.Dat τ (Elt F) (HIx 1) ℕ UU ℕ cfg1 c where
  A w := match w with
    | ⟨0, _⟩ => m (aLoc c)
    | ⟨1, _⟩ => m (xLoc c)
  after w t := match w with
    | ⟨0, _⟩ => blk (F := F) (m (aLoc c)) t
    | ⟨1, _⟩ => fun _ => acc (F := F) (m (aLoc c)) (t.val + 1)
  Φ _ := Pipeline.scopedRest spec1 c
  q _ := fullShare
  owed _ := 0
  recorded _ := {p | (K (F := F)).lev ((SparseCore.T c), p.1) p.2 ≤ 8}

theorem A_0 (c : Dev nD) : (dats m 0 c).A 0 = m (aLoc c) := by dsimp only [dats]
theorem A_1 (c : Dev nD) : (dats m 0 c).A 1 = m (xLoc c) := by dsimp only [dats]
theorem after_0 (c : Dev nD) (t : Fin cfg1.N) : (dats m 0 c).after 0 t = blk (F := F) (m (aLoc c)) t := by dsimp only [dats]
theorem after_1 (c : Dev nD) (t : Fin cfg1.N) :
    (dats m 0 c).after 1 t = fun _ => acc (F := F) (m (aLoc c)) (t.val + 1) := by dsimp only [dats]

/-- Window 0 is fetched at every point and its blocks tile the array: the body finds block `t`. -/
theorem before_0 (c : Dev nD) (t : Fin cfg1.N) (d) : (dats m 0 c).before 0 t d = blk (F := F) (m (aLoc c)) t := by
  unfold Dat.before; rw [if_pos (fetch1_0 t)]
  unfold Dat.fetched Dat.blockOf blk; rw [A_0]; try rfl

/-- At the first point the word's buffer holds anything. -/
theorem before_1_zero (c : Dev nD) (t : Fin cfg1.N) (h0 : t.val = 0) (d) : (dats m 0 c).before 1 t d = d :=
  Dat.before_out_reset _ 1 rfl t (.inl h0) d

/-- At a later point it holds what the body left at the point before: it is written back at the last point only. -/
theorem before_1_pos (c : Dev nD) (t : Fin cfg1.N) (h0 : t.val ≠ 0) (d) :
    (dats m 0 c).before 1 t d = fun _ => acc (F := F) (m (aLoc c)) t.val := by
  have hN : t.val < 50 := lt_of_lt_of_eq t.isLt (show cfg1.N = 50 from N_1)
  rw [Dat.before_out_kept _ 1 rfl t h0 (Bool.eq_false_iff.mpr fun h => by have := (flush1_1 _).mp h; dsimp only at this; omega)
    (fun _ => rfl) (fun _ _ => rfl), after_1]
  dsimp only
  rw [Nat.sub_add_cancel (Nat.pos_of_ne_zero h0)]

/-! ## The body obligation, at a generic point -/

/-- Each window's current staging memref at point `t`, as the pipeline passes it, and its wholeness. -/
abbrev ms0 (t : Fin cfg1.N) : Memref sig .tc .vmem S32000x2 .i32 := win1_0.stage (cfg1.slots t 0)
abbrev hs0 (t : Fin cfg1.N) : (ms0 t).IsWhole := hstage1_0 ((cfg1.slots t 0).cast nbuf1_0)
abbrev ms1 (t : Fin cfg1.N) : Memref sig .tc .smem S1x1 .i32 := win1_1.stage (cfg1.slots t 1)
abbrev hs1 (t : Fin cfg1.N) : (ms1 t).IsWhole := hstage1_1 ((cfg1.slots t 1).cast nbuf1_1)

/-- What the body is called with at point `t`, the windows one by one, -/
def bodyPre (c : Dev nD) (t : Fin cfg1.N) : sProp 𝕄 :=
  iprop((dats m 0 c).Φ t.castSucc ∗ (dats m 0 c).owesAt (none : HIx 1) t.castSucc
    ∗ (∃ d, owns (c : Thread nD τ) (ms0 t) fullShare ((dats m 0 c).before 0 t d))
    ∗ (∃ d, owns (c : Thread nD τ) (ms1 t) fullShare ((dats m 0 c).before 1 t d)))

/-- and what it returns. -/
def bodyPost (c : Dev nD) (t : Fin cfg1.N) : sProp 𝕄 :=
  iprop((dats m 0 c).Φ t.succ ∗ (dats m 0 c).owesAt (none : HIx 1) t.succ
    ∗ owns (c : Thread nD τ) (ms0 t) fullShare ((dats m 0 c).after 0 t)
    ∗ owns (c : Thread nD τ) (ms1 t) fullShare ((dats m 0 c).after 1 t))

/-- The body at any point: the block's buffer holds block `t`; the word's buffer holds anything at the first point, where
    the stored word does not depend on it, and the running word at a later one; the run applies, and the word it leaves is
    the running word's next value. The invariant and what the core owes pass through. -/
theorem sound_body (c : Dev nD) (t : Fin cfg1.N) :
    bodyPre m c t ⊢ wp frame (wpE (defs₀ (F := F)) 𝒱₀ c none) Set.univ (bodyAt1 t) (fun _ => bodyPost m c t) := by
  unfold bodyPre bodyPost bodyAt1
  simp only [before_0]
  rw [show (dats m 0 c).Φ t.succ = (dats m 0 c).Φ t.castSucc from rfl,
    show (dats m 0 c).owesAt (none : HIx 1) t.succ = (dats m 0 c).owesAt (none : HIx 1) t.castSucc from rfl,
    after_0, after_1, acc_succ]
  by_cases h0 : t.val = 0
  · simp only [before_1_zero m c t h0]
    iintro ⟨HΦ, Ho, ⟨%d0, H0⟩, ⟨%d1, H1⟩⟩
    iapply (bodyRun c (grid1.coords t) _ _ _ _ (blk (F := F) (m (aLoc c)) t) d1 _)
    isplitl [H0]; · iexact H0
    isplitl [H1]; · iexact H1
    iintro ⟨H0, H1⟩
    isplitl [HΦ]; · iexact HΦ
    isplitl [Ho]; · iexact Ho
    isplitl [H0]; · iexact H0
    rw [stepWord_zero (grid1.coords t) ((coords_val t).trans h0) (acc (F := F) (m (aLoc c)) t.val) (d1 i00)]
    iexact H1
  · simp only [before_1_pos m c t h0]
    iintro ⟨HΦ, Ho, ⟨%d0, H0⟩, ⟨%d1, H1⟩⟩
    iapply (bodyRun c (grid1.coords t) _ _ _ _ (blk (F := F) (m (aLoc c)) t) (fun _ => acc (F := F) (m (aLoc c)) t.val) _)
    isplitl [H0]; · iexact H0
    isplitl [H1]; · iexact H1
    iintro ⟨H0, H1⟩
    isplitl [HΦ]; · iexact HΦ
    isplitl [Ho]; · iexact Ho
    isplitl [H0]; · iexact H0
    iexact H1

/-- The body obligation, at every point. -/
theorem body_obligation (c : Dev nD) : Pipeline.BodyObligation (dats m 0 c) (defs₀ (F := F)) 𝒱₀ (none : HIx 1) Set.univ := fun t => by
  rw [bigSep_W1, bigSep_W1]
  exact sound_body m c t

end Cert.Proof.Kernel

end
-- ==== Proof.Kernel.Region.lean ====
/-
  The TensorCore pipeline region of the program, as a record the launch can use.

  The region is entered from the edge list and the one-word result held whole, the core owing nothing with the waits it has
  recorded below level 8. The edge list is an input: no write-back touches it. The result is written back at the last
  point only, with the word after all fifty points, and its one-word block is the whole array. The loop's own waits are
  recorded at the index of level 0, the body records none, so what the core has recorded stays below level 8. There is no
  scratch and no semaphore of the body's own: the invariant between points is the scoped rest, nothing else enters the
  region and nothing bypasses it.
-/
import proofs.«216085_g6047313953276_cont_9to1_m_1310_46_alg».proof.Proof.Kernel.RegionBody

noncomputable section

namespace Cert.Proof.Kernel

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ)

/-! ## The arrays at the region's two ends -/

/-- The edge list is an input: no write-back touches it. -/
theorem arrAt_0 (c : Dev nD) : (dats m 0 c).arrAt 0 cfg1.N = m (aLoc c) :=
  ((dats m 0 c).arrAt_in 0 rfl _).trans (A_0 m c)

/-- The last point. -/
abbrev tLast : Fin cfg1.N := ⟨49, by decide⟩

/-- The one-word block is the whole one-word array. -/
theorem cover_1 : ∀ i : ((cfg1.win 1).blk tLast).view.ty.Idx, i ∈ ((cfg1.win 1).blk tLast).view.set := by decide

/-- The result is written back at the last point only, with the word after all fifty points, over the whole array. -/
theorem arrAt_1 (c : Dev nD) : (dats m 0 c).arrAt 1 cfg1.N = fun _ => acc (F := F) (m (aLoc c)) 50 := by
  refine (dats m 0 c).arrAt_eq_of_cover 1 (fun _ => acc (F := F) (m (aLoc c)) 50) (fun t hf => ?_) (fun i => ?_)
  · have h49 : t.val = 49 := by
      have hN : t.val < 50 := lt_of_lt_of_eq t.isLt (show cfg1.N = 50 from N_1)
      have := (flush1_1 t).mp hf; omega
    show (dats m 0 c).after 1 t = _
    rw [after_1, h49]
    funext x
    rw [View.read_apply]
    exact (cast_eq _ _).symm
  · exact ⟨tLast, (flush1_1 _).mpr rfl, cover_1 i⟩

theorem hshare (c : Dev nD) : ∀ w, (dats m 0 c).share w = fullShare := (dats m 0 c).share_full fun _ => rfl

/-- ENTRY: the two arrays held whole are the pipeline's arrays at the proof data's entry contents. -/
theorem arrays_entry (c : Dev nD) :
    iprop((aLoc c ↦{fullShare} m (aLoc c)) ∗ (xLoc c ↦{fullShare} m (xLoc c)))
      ⊢ ((dats m 0 c).arrays ((dats m 0 c).arrAt · 0) : sProp 𝕄) := by
  rw [Pipeline.arrays_eq (Pipeline.pin (pcfgs (F := F)) adm) (dats m) 0 c launch1.arr_whole (hshare m c), bigSep_W1]
  exact .rfl

/-- EXIT: the pipeline's arrays at their final contents are the edge list as it was and the result at the word after
    all fifty points. -/
theorem arrays_exit (c : Dev nD) :
    ((dats m 0 c).arrays ((dats m 0 c).arrAt · cfg1.N) : sProp 𝕄)
      ⊢ iprop((aLoc c ↦{fullShare} m (aLoc c)) ∗ (xLoc c ↦{fullShare} (fun _ => acc (F := F) (m (aLoc c)) 50))) := by
  rw [Pipeline.arrays_eq (Pipeline.pin (pcfgs (F := F)) adm) (dats m) 0 c launch1.arr_whole (hshare m c), bigSep_W1, arrAt_0, arrAt_1]

/-! ## What the core owes at the region's two ends -/

/-- ENTRY: the waits recorded before the region sit below level 8, which is the proof data's bound. -/
theorem owes_entry (c : Dev nD) :
    iprop(∃ W, ⌜(K (F := F)).WBelow (SparseCore.T c) W 8⌝ ∗ owes (SparseCore.T c) (0 : CellTallies nD τ sig (HIx 1)) W)
      ⊢ ((dats m 0 c).owesAt (none : HIx 1) 0 : sProp 𝕄) := by
  unfold Pipeline.Dat.owesAt Pipeline.owesWithin
  iintro ⟨%W, %hW, HO⟩
  iexists W; isplitr
  · ipureintro; exact fun p hp => Or.inl (hW p (Finset.mem_coe.mp hp))
  iexact HO

/-- EXIT: the loop's own waits are recorded at the index of level 0, the others stayed within the bound. -/
theorem owes_exit (c : Dev nD) :
    ((dats m 0 c).owesAt (none : HIx 1) (Fin.last cfg1.N) : sProp 𝕄)
      ⊢ iprop(∃ W, ⌜(K (F := F)).WBelow (SparseCore.T c) W 8⌝ ∗ owes (SparseCore.T c) (0 : CellTallies nD τ sig (HIx 1)) W) := by
  unfold Pipeline.Dat.owesAt Pipeline.owesWithin
  iintro ⟨%W, %hW, HO⟩
  iexists W; isplitr
  · ipureintro
    intro p hp
    rcases hW (Finset.mem_coe.mpr hp) with h | ⟨w, s, rfl⟩
    · exact h
    · exact Nat.zero_le 8
  iexact HO

/-! ## The region as the launch uses it -/

set_option backward.isDefEq.respectTransparency.types false in
/-- The region: the windows' decided layout, no semaphore of the body's own, the body obligation; entered from the two arrays
    held whole and the core owing nothing with its recorded waits below level 8, left with the edge list as it was, the
    result at the word after all fifty points, and the same of what the core owes. Nothing enters the invariant but the
    scoped rest, nothing bypasses the region. -/
def reg1 : Pipeline.RegionSeg (pcfgs (F := F)) adm (dats m) (none : HIx 1) defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation m c).loose
  hwaits := Pipeline.hwaits_of_owed_zero _ _ _ _ (K (F := F)).L (K (F := F)).lev 0 fun _ _ => rfl
  pre c := iprop((aLoc c ↦{fullShare} m (aLoc c)) ∗ (xLoc c ↦{fullShare} m (xLoc c))
    ∗ ∃ W, ⌜(K (F := F)).WBelow (SparseCore.T c) W 8⌝ ∗ owes (SparseCore.T c) (0 : CellTallies nD τ sig (HIx 1)) W)
  post c := iprop((aLoc c ↦{fullShare} m (aLoc c)) ∗ (xLoc c ↦{fullShare} (fun _ => acc (F := F) (m (aLoc c)) 50))
    ∗ ∃ W, ⌜(K (F := F)).WBelow (SparseCore.T c) W 8⌝ ∗ owes (SparseCore.T c) (0 : CellTallies nD τ sig (HIx 1)) W)
  X _ := iprop(emp)
  Y _ := iprop(emp)
  Z _ := iprop(emp)
  hentry c := by
    iintro ⟨⟨Ha, Hx, HO⟩, -, -⟩
    imodintro
    isplitl [Ha Hx]
    · iapply (arrays_entry m c)
      isplitl [Ha]; · iexact Ha
      iexact Hx
    isplitr
    · unfold Pipeline.prefHeld; rw [show (Finset.univ : Finset (Fin 0)) = ∅ from rfl, BI.bigSep_empty]; iempintro
    isplitl [HO]
    · iapply (owes_entry m c); iexact HO
    isplitr <;> iempintro
  hin c := by
    show iprop(emp ∗ Pipeline.prefHeld (pcfgs (F := F) 0).pre c (fun _ => fullShare) (adm (F := F) 0).1 ∗ Pipeline.scopedRest spec1 c)
      ⊢ (Pipeline.scopedRest spec1 c : sProp 𝕄)
    iintro ⟨-, -, Hr⟩; iexact Hr
  hout c := by
    show (Pipeline.scopedRest spec1 c : sProp 𝕄)
      ⊢ iprop(emp ∗ Pipeline.ownSems0 (fun k : PEmpty => k.elim) c ∗ Pipeline.scopedRest spec1 c)
    iintro Hr
    isplitr; · iempintro
    isplitr
    · unfold Pipeline.ownSems0; rw [show (Finset.univ : Finset PEmpty) = ∅ from rfl, BI.bigSep_empty]; iempintro
    iexact Hr
  hexit c := by
    iintro ⟨Ha, HO, -, -⟩
    imodintro
    ihave H := (arrays_exit m c) $$ Ha
    icases H with ⟨Ha, Hx⟩
    isplitl [Ha]; · iexact Ha
    isplitl [Hx]; · iexact Hx
    iapply (owes_exit m c); iexact HO

theorem reg1_pre (c : Dev nD) : (reg1 m).pre c
    = iprop((aLoc c ↦{fullShare} m (aLoc c)) ∗ (xLoc c ↦{fullShare} m (xLoc c))
      ∗ ∃ W, ⌜(K (F := F)).WBelow (SparseCore.T c) W 8⌝ ∗ owes (SparseCore.T c) (0 : CellTallies nD τ sig (HIx 1)) W) := rfl

theorem reg1_post (c : Dev nD) : (reg1 m).post c
    = iprop((aLoc c ↦{fullShare} m (aLoc c)) ∗ (xLoc c ↦{fullShare} (fun _ => acc (F := F) (m (aLoc c)) 50))
      ∗ ∃ W, ⌜(K (F := F)).WBelow (SparseCore.T c) W 8⌝ ∗ owes (SparseCore.T c) (0 : CellTallies nD τ sig (HIx 1)) W) := rfl

set_option backward.isDefEq.respectTransparency.types false in
/-- The region's step on core `c`, at the top of the main program: from the boundary, the region's entry state, the level
    facts and the pipeline's ghost state, the region's call runs to the boundary and the exit state for the continuation. -/
theorem region_wp (c : Dev nD) {α : Type} (k : PUnit → Prog (TpuEff nD τ sig (Elt F) (ΛP (F := F)) .tc) α) (Q : α → sProp 𝕄) :
    iprop((iprop(boundary (SparseCore.T c) ∗ (reg1 m).post c) -∗ wp frame (wpE (D (F := F)) 𝒱 (SparseCore.T c) none) Set.univ (k ⟨⟩) Q)
        ∗ boundary (SparseCore.T c) ∗ (reg1 m).pre c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱 (SparseCore.T c) none) Set.univ (.op (.customCall (Pipeline.entry 0) ()) k) Q :=
  Pipeline.RegionSeg.wp (pcfgs (F := F)) adm (dats m) none cellOf_inj EP defs₀ 𝒱₀ (K (F := F)).L (K (F := F)).lev (reg1 m) c none
    (by intro u hu; cases hu) k Q

end Cert.Proof.Kernel

end
-- ==== Proof.Kernel.Launch.lean ====
/-
  The launch. What the SparseCore call carries (each SparseCore its half of `vals`, each vector subcore its five runs,
  back as ones), the launch theorem's obligations, and @main on the TensorCore: the call (`vals` out whole, back as
  ones), the pipeline region (the edge list kept, the one-word window left at the running maximum after fifty
  points), the reshape of that word. The run's post names all three results.
-/
import proofs.«216085_g6047313953276_cont_9to1_m_1310_46_alg».proof.Proof.Kernel.Tile
import proofs.«216085_g6047313953276_cont_9to1_m_1310_46_alg».proof.Proof.Kernel.Region

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held held_split held_sdiff_result wp_hlo_within)

variable (m : (ℓ : Loc nD τ sig) → Buf (Elt F) ℓ) (ρ : Dev nD → PrngReg)
variable [FloatOps F]

/-! ## What the handshakes carry -/

/-- SparseCore `c` is handed the runs of its sixteen subcores; subcore `s` its five. -/
def P : (K (F := F)).Pay (nD := nD) (Val := Elt F) (Name := ℕ) (U := UU) where
  st := fun q d c => match q with | 0 => bigSep Finset.univ fun s : Fin 16 => runs d (mkL (Fin.cast nCore_zero c) s) (m (vLoc d))
  dn := fun q d c => match q with | 0 => bigSep Finset.univ fun s : Fin 16 => runs d (mkL (Fin.cast nCore_zero c) s) (ones d)
  go := fun q d c i => match q with | 0 => runs d (mkL (Fin.cast nCore_zero c) (Fin.cast nSub_zero i)) (m (vLoc d))
  td := fun q d c i => match q with | 0 => runs d (mkL (Fin.cast nCore_zero c) (Fin.cast nSub_zero i)) (ones d)
  x := fun _ _ => iprop(emp)

omit [FloatOps F] in
instance runs_storable (d : Dev nD) (L : grid0.Coords) (f : Buf (Elt F) (vLoc d)) : BI.Storable (upEmb : UEmb _ 𝕄) (runs d L f) := by
  unfold runs; infer_instance

instance P_storable : (P (F := F) m).IsStorable where
  st q d c := match q with
    | 0 => (inferInstance : BI.Storable (upEmb : UEmb _ 𝕄) (bigSep Finset.univ fun s : Fin 16 => runs d (mkL (Fin.cast nCore_zero c) s) (m (vLoc d))))
  dn q d c := match q with
    | 0 => (inferInstance : BI.Storable (upEmb : UEmb _ 𝕄) (bigSep Finset.univ fun s : Fin 16 => runs d (mkL (Fin.cast nCore_zero c) s) (ones d)))
  go q d c i := match q with
    | 0 => (inferInstance : BI.Storable (upEmb : UEmb _ 𝕄) (runs d (mkL (Fin.cast nCore_zero c) (Fin.cast nSub_zero i)) (m (vLoc d))))
  td q d c i := match q with
    | 0 => (inferInstance : BI.Storable (upEmb : UEmb _ 𝕄) (runs d (mkL (Fin.cast nCore_zero c) (Fin.cast nSub_zero i)) (ones d)))

/-! ## The launch theorem's obligations -/

theorem defs₀_vector (c : Fin τ.nSC) (s : Fin τ.nSub) :
    defs₀ (F := F) (.scVector c s) 0 ()
      = SparseCore.onTile hcore0 hsub0 (fun c s => cc0_sc_ones (fun | 0 => c | 1 => s | ⟨_ + 2, h⟩ => absurd h (Nat.not_lt.2 (Nat.le_add_left _ _)))
          vV (Memref.isWhole_whole _) sS (Memref.isWhole_whole _) cc0_scratch1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (mkL ⟨_, hc.1⟩ ⟨_, hc.2⟩) facts O W hO (m (vLoc d))).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => runs d (mkL (Fin.cast nCore_zero c) s) (m (vLoc d))) ⊢ |={Set.univ}=> iprop(
      (bigSep Finset.univ fun i : Fin ((K (F := F)).nSub 0) => runs d (mkL (Fin.cast nCore_zero c) (Fin.cast nSub_zero i)) (m (vLoc d)))
      ∗ ((bigSep Finset.univ fun i : Fin ((K (F := F)).nSub 0) => runs d (mkL (Fin.cast nCore_zero c) (Fin.cast nSub_zero i)) (ones d))
          -∗ bigSep Finset.univ fun s : Fin 16 => runs d (mkL (Fin.cast nCore_zero c) s) (ones d)))
  rw [bigSep_tasks (F := F) (fun s => runs d (mkL (Fin.cast nCore_zero c) s) (m (vLoc d))),
    bigSep_tasks (F := F) (fun s => runs d (mkL (Fin.cast nCore_zero c) s) (ones d))]
  iintro H; imodintro
  isplitl [H]; · iexact H
  iintro H; iexact H

/-! ## The launch element: the handshakes' rounds, the staging cells' rounds; no counter yet -/

/-- What @main's proof starts from beside the launch's: the staging cells' ghost state and duty tokens. -/
def G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

def u₀' : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] in
theorem own_EP (x : UP) :
    (BI.own (((Emb.inl : Emb UP (UP × Counters)).trans (embR : Emb (UP × Counters) 𝕄)) x) : sProp 𝕄) = BI.own (EP x) := rfl

theorem hu₀ : (ownU (u₀' (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀'
  iintro Hu
  ihave H := (ownU_pair _ _) $$ Hu
  icases H with ⟨HH, HR⟩
  ihave H2 := (own_pair_emb (embR : Emb (UP × Counters) 𝕄) _ _) $$ HR
  icases H2 with ⟨HP, -⟩
  ihave HP := (Entails.of_eq (own_EP (F := F) _)) $$ HP
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_sep']
    have e1 : (bigSep Finset.univ fun c : Dev nD => bigSep Finset.univ fun p : Fin 1 => Pipeline.cellsGhost (Pipeline.pin (pcfgs (F := F)) adm) EP p c : sProp 𝕄)
        = bigSep Finset.univ fun c : Dev nD => Pipeline.cellsGhost (Pipeline.pin (pcfgs (F := F)) adm) EP 0 c :=
      bigSep_congr fun c _ => bigSep_univ_of_subsingleton (0 : Fin 1)
    have e2 : (bigSep Finset.univ fun c : Dev nD => bigSep Finset.univ fun p : Fin 1 => Pipeline.toksInit (Pipeline.pin (pcfgs (F := F)) adm) EP p c : sProp 𝕄)
        = bigSep Finset.univ fun c : Dev nD => Pipeline.toksInit (Pipeline.pin (pcfgs (F := F)) adm) EP 0 c :=
      bigSep_congr fun c _ => bigSep_univ_of_subsingleton (0 : Fin 1)
    ihave Hg := (Entails.of_eq e1) $$ Hg
    ihave Ht := (Entails.of_eq e2) $$ Ht
    isplitl [Hg]
    · iexact Hg
    · iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
theorem unscopedBufs_eq (d : Dev nD) (Wv : (b : Ref sig .tc) → Buf (Elt F) ((d.tc : Thread nD τ).loc b)) :
    (unscopedBufs d Wv : sProp 𝕄) = iprop((aLoc d ↦{fullShare} Wv main_arg0) ∗ (vLoc d ↦{fullShare} Wv main_v0) ∗ (xLoc d ↦{fullShare} Wv main_v1) ∗ nLoc d ↦{fullShare} Wv main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

omit [FloatOps F] in
/-- `vals` held whole is every subcore's runs. -/
theorem pts_runs (d : Dev nD) (f : Buf (Elt F) (vLoc d)) :
    (vLoc d ↦{fullShare} f : sProp 𝕄) = bigSep Finset.univ fun c : Fin 2 => bigSep Finset.univ fun s : Fin 16 => runs d (mkL c s) f := by
  rw [pts_pieces, bigSep_univ_prod]
  refine bigSep_congr fun c _ => ?_
  rw [bigSep_univ_prod]
  rfl

theorem st0_eq (d : Dev nD) : (bigSep Finset.univ fun c : Fin ((K (F := F)).nCore 0) => (P m).st 0 d c) = (vLoc d ↦{fullShare} m (vLoc d) : sProp 𝕄) := by
  show (bigSep (Finset.univ : Finset (Fin 2)) fun c => bigSep Finset.univ fun s : Fin 16 => runs d (mkL c s) (m (vLoc d))) = _
  rw [pts_runs]
theorem dn0_eq (d : Dev nD) : (bigSep Finset.univ fun c : Fin ((K (F := F)).nCore 0) => (P m).dn 0 d c) = (vLoc d ↦{fullShare} ones d : sProp 𝕄) := by
  show (bigSep (Finset.univ : Finset (Fin 2)) fun c => bigSep Finset.univ fun s : Fin 16 => runs d (mkL c s) (ones d)) = _
  rw [pts_runs]

/-- The TensorCore's handshake state before call `n`, but for what it owes. -/
def tcTail (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

omit [FloatOps F] in
/-- After the one call the TensorCore owes nothing. -/
theorem tcSt_split (d : Dev nD) (n : ℕ) (hn : 1 ≤ n) :
    ((K (F := F)).tcSt EH d n : sProp 𝕄)
      = iprop((∃ W, ⌜(K (F := F)).WBelow (T d) W (8 * n)⌝ ∗ owes (T d) (0 : CellTallies nD τ sig (HIx 1)) W) ∗ tcTail (F := F) d n) := by
  unfold SparseCore.Cfg.tcSt tcTail
  rw [(K (F := F)).Otc_end d hn]

abbrev x' : DevRef τ sig := Proc.devRef .tc (main_v1 : Ref sig .tc)
abbrev n' : DevRef τ sig := Proc.devRef .tc (main_v2 : Ref sig .tc)
/-- The reshape of the one-word window. -/
abbrev opR : HloOp τ sig (Elt F) := StableHlo.reshape main_v1 main_v2 rfl shapeCasts_S1x1_S_
abbrev S2 : Finset (DevRef τ sig) := {x', n'}

omit [FloatOps F] in
theorem held_S2 (d : Dev nD) (Wv : Valuation τ sig (Elt F)) :
    (held (T d) S2 Wv : sProp 𝕄) = iprop((xLoc d ↦{fullShare} Wv x') ∗ nLoc d ↦{fullShare} Wv n') := by
  unfold held S2
  rw [SparseCore.bigSep_insert' (by decide), bigSep_singleton]

theorem hR : (opR (F := F)).bufs ⊆ S2 := show ({x', n'} : Finset (DevRef τ sig)) ⊆ S2 by decide

/-- The TensorCore's buffers after the region: the window at the last running word. -/
def V1 (d : Dev nD) : Valuation τ sig (Elt F) :=
  Function.update (fun b => m (d, b)) x' (fun _ => acc (F := F) (m (aLoc d)) 50)
theorem V1_x (d : Dev nD) : V1 m d x' = fun _ => acc (F := F) (m (aLoc d)) 50 := Function.update_self _ _ _
theorem V1_n (d : Dev nD) : V1 m d n' = m (nLoc d) := Function.update_of_ne (show n' ≠ x' by decide) _ _

/-- The third result: the reshape of the window. -/
def nVal (d : Dev nD) : Buf (Elt F) (nLoc d) := (opR (F := F)).result (V1 m d) n'

theorem nVal_apply (d : Dev nD) (i : S_.Idx) : nVal m d i = acc (F := F) (m (aLoc d)) 50 := by
  unfold nVal
  rw [StableHlo.reshape_result, V1_x]
  rfl

/-- What @main leaves the claim: the edge list as launched, `vals` all ones, the reshaped word. -/
abbrev FIN (d : Dev nD) : sProp 𝕄 :=
  iprop((aLoc d ↦{fullShare} m (aLoc d)) ∗ (vLoc d ↦{fullShare} ones d) ∗ nLoc d ↦{fullShare} nVal m d)

theorem hmain (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscopedBufs_eq]
  simp only [main, wp_bind, wp_pure]
  iintro ⟨#Hctx, Hst, ⟨Hb, ⟨Ha, Hv, Hx, Hn⟩, -, -⟩, ⟨Hcg, Htk⟩⟩
  ihave Hlev := (SparseCore.Cfg.ctx_levAts κ) $$ Hctx
  -- the call: `vals` out, whole; back as ones
  iapply ((K (F := F)).wp_run (D (F := F)) 𝒱 (EH := EH) (P := P m) κ d 0) $$ [Hst Hv Hb Ha Hx Hn Hcg Htk]
  isplitr; · iexact Hctx
  isplitl [Hst]; · iexact Hst
  isplitl [Hv]
  · rw [st0_eq]; iexact Hv
  iintro ⟨Hst, Hdn⟩
  ihave Hv := (Entails.of_eq (dn0_eq m d)) $$ Hdn
  ihave Hst' := (Entails.of_eq (tcSt_split (F := F) d ((0 : Fin 1).val + 1) (le_refl 1))) $$ Hst
  icases Hst' with ⟨HO, Htail⟩
  -- the region: the edge list and the window in, the window back at the last running word
  iapply ((K (F := F)).wp_liftProg (D (F := F)) 𝒱 (SparseCore.T d) Set.univ none (.op (.customCall (Pipeline.entry 0) ()) .ret) _)
  iapply (region_wp m d Prog.ret _)
  isplitr [Hb Ha Hx HO Hcg Htk]
  swap
  · isplitl [Hb]; · iexact Hb
    isplitl [Ha Hx HO]
    · rw [reg1_pre]
      isplitl [Ha]; · iexact Ha
      isplitl [Hx]; · iexact Hx
      iexact HO
    isplitr; · iexact Hlev
    isplitl [Hcg]; · iexact Hcg
    iexact Htk
  iintro ⟨Hb, Hpost⟩
  ihave Hpost := (Entails.of_eq (reg1_post m d)) $$ Hpost
  icases Hpost with ⟨Ha, Hx, HO⟩
  rw [wp_ret]; imodintro
  -- the reshape
  iapply (wp_hlo_within 𝒱 (SparseCore.T d) none Set.univ (op := opR) (S := S2) hR (V := V1 m d)) $$ [Hb Hx Hn]
  · isplitl [Hb]; · iexact Hb
    rw [held_S2, V1_x, V1_n]
    isplitl [Hx]; · iexact Hx
    iexact Hn
  iintro ⟨Hb, Hheld⟩
  ihave Hh := (Entails.of_eq (held_S2 (F := F) d _)) $$ Hheld
  icases Hh with ⟨-, Hn⟩
  rw [wp_ret]; imodintro; imodintro
  isplitl [HO Htail]
  · iapply (Entails.of_eq (tcSt_split (F := F) d 1 (le_refl 1)).symm)
    isplitl [HO]; · iexact HO
    iexact Htail
  isplitl [Ha]; · iexact Ha
  isplitl [Hv]; · iexact Hv
  iexact Hn

def fq (d : Dev nD) (s' : Phys nD τ sig (Elt F)) : Prop :=
  s'.mem.mem (aLoc d) = m (aLoc d) ∧ s'.mem.mem (vLoc d) = ones d ∧ s'.mem.mem (nLoc d) = nVal m d

theorem hfin (d : Dev nD) (s' : Phys nD τ sig (Elt F)) : iprop(FIN m d ∗ SI s') ⊢ (⌜fq m d s'⌝ : sProp 𝕄) := by
  iintro ⟨⟨Ha, Hv, Hn⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := vLoc d) (I := Finset.univ) (q := fullShare) (f := ones d))) $$ [HSI Hv]
  · isplitl [HSI] <;> iassumption
  icases H with ⟨%h2, HSI, -⟩
  ihave H := (SI_pointsTo_agree (st := s') (ℓ := nLoc d) (I := Finset.univ) (q := fullShare) (f := nVal m d)) $$ [HSI Hn]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- Every final memory: the edge list unchanged, `vals` all ones, the third result the reshaped last running word. -/
def QC : PUnit × MemSt nD τ sig (Elt F) → Prop := fun r =>
  ∀ c : Dev nD, r.2.mem (aLoc c) = m (aLoc c) ∧ r.2.mem (vLoc c) = ones c ∧ r.2.mem (nLoc c) = nVal m c

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m)
    (fun q _ => match q with | 0 => SparseCore.Cfg.VecSplit.of_plain (vecSplit m))
    m ρ main (G (F := F)) (FIN m) (u₀' (F := F)) (sep_elim_left.trans (hu₀ m)) (hmain m ρ) (fq m) (hfin m) (QC m) (fun _ h => h)

end Cert.Proof.Kernel

end
-- ==== Proof.RefRun.lean ====
/-
  The reference's run: its three results as functions of the edge list.

  The reference runs to the end, faults nowhere and leaves the edge list unchanged (the generated run read back); its
  second result is one at every index; and its third result, at the one index of the rank-zero shape, is the signed
  maximum of the edge list over both axes from the least word, plus one.
-/
import proofs.«216085_g6047313953276_cont_9to1_m_1310_46_alg».proof.Defs
import proofs.«216085_g6047313953276_cont_9to1_m_1310_46_alg».proof.Proof.Gen.ReferenceIdeal.Run
import proofs.«216085_g6047313953276_cont_9to1_m_1310_46_alg».proof.Proof.Gen.ReferenceIdeal.Read

noncomputable section

namespace Cert.Proof.Ref

open Cert.ReferenceIdeal Cert.ReferenceIdeal.Gen Idealize.ShloMosaic Idealize.ShloMosaic.TcCoe Idealize.SL.Sem
  Idealize.ShloMosaic.StableHlo

/-- The reference terminates, faults nowhere, and ends with the edge list as it was. -/
theorem frame [Cert.ReferenceIdeal.Facts] [Cert.Pre_input_domain.Facts] : Cert.frame_ReferenceIdeal :=
  fun m ρ _ => (θ_run Cert.ReferenceIdeal.defs _ _).mono (fun _ h c => (h c).2.2.2)
    (Cert.ReferenceIdeal.Value.run (F := Ideal) m ρ)

/-- The reference's second result is one at every index. -/
theorem ones_eq (i : S1600000.Idx) :
    (broadcastInDim S1600000 ![] bcast_S_S1600000 (constantI S_ 32 1#32) : IVec S1600000 32) i = 1#32 :=
  (Cert.ReferenceIdeal.Read.val_main_v4_apply (F := Ideal) i).trans
    (Cert.ReferenceIdeal.Read.val_main_c_1_apply (F := Ideal) _)

/-- The reference's third result at its one index: the reduction's element plus one. -/
theorem max_eq (X : IVec S1600000x2 32) (i : S_.Idx) :
    (addi (Host.reduce IntOp.maxsi X (constantI S_ 32 2147483648#32) reducesTo_S1600000x2_S_d0_1 h_S_)
        (constantI S_ 32 1#32) : IVec S_ 32) i
      = IntOp.addi (Host.reduce IntOp.maxsi X (constantI S_ 32 2147483648#32) reducesTo_S1600000x2_S_d0_1 h_S_ i) 1#32 :=
  Cert.ReferenceIdeal.Read.val_main_v1_apply (F := Ideal) X i

end Cert.Proof.Ref

end
-- ==== Proof.lean ====
/-
  The certificate's five conjuncts.

  Both kernel programs (the word-level one and its idealization: no float operation occurs, the ideal pass rewrote
  nothing) run to the end with the edge list unchanged, `vals` all ones and the third result the last running word of the
  TensorCore pipeline: thirty-two vector subcores write ones into disjoint runs that cover `vals`, the pipeline keeps in a
  one-word window the signed maximum of the blocks seen so far and adds one at the last block. The reference's run is its
  host operations' composed term: a broadcast of one, and the signed maximum of the whole list plus one. The two third
  results are equal because the signed maximum is associative, commutative and idempotent and the fifty blocks partition
  the list; the additions are the same wrapping addition. No precondition is used.
-/
import proofs.«216085_g6047313953276_cont_9to1_m_1310_46_alg».proof.Defs
import proofs.«216085_g6047313953276_cont_9to1_m_1310_46_alg».proof.Proof.KernelIdeal.Launch
import proofs.«216085_g6047313953276_cont_9to1_m_1310_46_alg».proof.Proof.KernelIdeal.MaxBlocks
import proofs.«216085_g6047313953276_cont_9to1_m_1310_46_alg».proof.Proof.Kernel.Launch
import proofs.«216085_g6047313953276_cont_9to1_m_1310_46_alg».proof.Proof.RefRun
import proofs.«216085_g6047313953276_cont_9to1_m_1310_46_alg».proof.Proof.Gen.Pre_input_domain
import Idealize.ShloMosaic.Adequacy
import Idealize.ShloMosaic.Init

noncomputable section

namespace Cert.Proof

open Idealize.ShloMosaic Idealize.SL.Sem

/-- The word-level program runs and keeps the edge list. -/
theorem frame_k : Cert.frame_Kernel := fun m ρ _ =>
  (θ_run Cert.Kernel.defs _ _).mono (fun _ h c => (h c).1) (Cert.Proof.Kernel.run_main (F := Bits) m ρ)

/-- So does its idealization. -/
theorem frame_ki : Cert.frame_KernelIdeal := fun m ρ _ =>
  (θ_run Cert.KernelIdeal.defs _ _).mono (fun _ h c => (h c).1) (Cert.Proof.KernelIdeal.run_main (F := Ideal) m ρ)

/-- The idealized kernel and the reference, from memories agreeing on the edge list, end with equal results: the list
    itself, a vector of ones, and the list's signed maximum plus one. -/
theorem algebraic : Cert.algebraic_KernelIdeal_ReferenceIdeal := by
  intro m g m' g' _ hagree
  refine ⟨fun c => m (Cert.Proof.KernelIdeal.aLoc c), fun c => Cert.Proof.KernelIdeal.ones (F := Ideal) c,
    fun c => Cert.Proof.KernelIdeal.nVal (F := Ideal) m c, ?_, ?_⟩
  · exact (θ_run Cert.KernelIdeal.defs _ _).mono (fun _ h c => ⟨(h c).1, (h c).2.1, (h c).2.2, (h c).1⟩)
      (Cert.Proof.KernelIdeal.run_main (F := Ideal) m g)
  · refine (θ_run Cert.ReferenceIdeal.defs _ _).mono (fun _ h c => ⟨(h c).1.trans (hagree c), ?_, ?_, (h c).2.2.2⟩)
      (Cert.ReferenceIdeal.Value.run (F := Ideal) m' g')
    · exact (h c).2.1.trans (funext fun i => Cert.Proof.Ref.ones_eq i)
    · refine (h c).2.2.1.trans (funext fun i => ?_)
      rw [Cert.Proof.Ref.max_eq, hagree c]
      exact ((Cert.Proof.KernelIdeal.acc_all (F := Ideal) _ _ _ i).symm.trans
        (Cert.Proof.KernelIdeal.nVal_apply (F := Ideal) m c i).symm)

theorem claim : Cert.Claim :=
  ⟨Cert.Kernel.Gen.facts, Cert.KernelIdeal.Gen.facts, Cert.ReferenceIdeal.Gen.facts, Cert.Pre_input_domain.Gen.facts,
    frame_k, frame_ki, Cert.Proof.Ref.frame, trivial, algebraic⟩

end Cert.Proof

end
